-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S100000x18 : Shape := ⟨2, ![100000, 18]⟩
abbrev S2x1000000 : Shape := ⟨2, ![2, 1000000]⟩
abbrev S1000000 : Shape := ⟨1, ![1000000]⟩
abbrev S3x64 : Shape := ⟨2, ![3, 64]⟩
abbrev S64 : Shape := ⟨1, ![64]⟩
abbrev S18x64 : Shape := ⟨2, ![18, 64]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S100000x18 : S_.BroadcastsInDim S100000x18 (![] : Fin 0 → Fin S100000x18.rank)
  reducesTo_S100000x18_S_d0_1 : S100000x18.ReducesTo [0, 1] S_
  bcast_S_S1000000 : S_.BroadcastsInDim S1000000 (![] : Fin 0 → Fin S1000000.rank)
  reducesTo_S1000000_S_d0 : S1000000.ReducesTo [0] S_
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S18x64 : S_.BroadcastsInDim S18x64 (![] : Fin 0 → Fin S18x64.rank)
  reducesTo_S18x64_S_d0_1 : S18x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x1 .f32) (main_arg11 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S64 .f32) (main_arg6 : FVec F S18x64 .f32) (main_arg7 : FVec F S64 .f32) (main_arg8 : FVec F S128x128 .f32) (main_arg9 : FVec F S128 .f32) (main_arg10 : FVec F S128x1 .f32) (main_arg11 : FVec F S1 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S18x64 .f32 := Host.absf main_arg6
  let main_cst_8 : FVec F S_ .f32 := constant S_ .f32 0x7F800000#32
  let main_v25 : FVec F S18x64 .f32 := broadcastInDim S18x64 ![] bcast_S_S18x64 main_cst_8
  let main_v26 : IVec S18x64 1 := cmpf .olt main_v24 main_v25
  let main_c_9 : IVec S_ 1 := constantI S_ 1 1#1
  let main_v27 : IVec S_ 1 := (fun x v => Host.reduce IntOp.andi x v reducesTo_S18x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x3 .f32) (main_arg1 : FVec F S100000x18 .f32) (main_arg2 : IVec S2x1000000 32) (main_arg3 : FVec F S1000000 .f32) (main_arg4 : FVec F S3x64 .f32) (main_arg5 : FVec F S64 .f32) (main_arg6 : FVec F S18x64 .f32) (main_arg7 : FVec F S64 .f32) (main_arg8 : FVec F S128x128 .f32) (main_arg9 : FVec F S128 .f32) (main_arg10 : FVec F S128x1 .f32) (main_arg11 : FVec F S1 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S100000x18 .f32 := Host.absf main_arg1
  let main_cst_0 : FVec F S_ .f32 := constant S_ .f32 0x7F800000#32
  let main_v5 : FVec F S100000x18 .f32 := broadcastInDim S100000x18 ![] bcast_S_S100000x18 main_cst_0
  let main_v6 : IVec S100000x18 1 := cmpf .olt main_v4 main_v5
  let main_c_1 : IVec S_ 1 := constantI S_ 1 1#1
  let main_v7 : IVec S_ 1 := (fun x v => Host.reduce IntOp.andi x v reducesTo_S100000x18_S_d0_1 h_S_) main_v6 main_c_1
  let main_v8 : IVec S_ 1 := andi main_v3 main_v7
  let main_v9 : FVec F S1000000 .f32 := Host.absf main_arg3
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S3x64 .f32 := Host.absf main_arg4
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg5 main_arg6 main_arg7 main_arg8 main_arg9 main_arg10 main_arg11 main_v13 main_v16
-- ==== Kernel.lean ====
abbrev S100000x3 : Shape := ⟨2, ![100000, 3]⟩
abbrev S100000x18 : Shape := ⟨2, ![100000, 18]⟩
abbrev S2x1000000 : Shape := ⟨2, ![2, 1000000]⟩
abbrev S1000000 : Shape := ⟨1, ![1000000]⟩
abbrev S3x64 : Shape := ⟨2, ![3, 64]⟩
abbrev S64 : Shape := ⟨1, ![64]⟩
abbrev S18x64 : Shape := ⟨2, ![18, 64]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1000000 : Shape := ⟨2, ![1, 1000000]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S100000x64 : Shape := ⟨2, ![100000, 64]⟩
abbrev S10000x3 : Shape := ⟨2, ![10000, 3]⟩
abbrev S10000x64 : Shape := ⟨2, ![10000, 64]⟩
abbrev S10000x18 : Shape := ⟨2, ![10000, 18]⟩
abbrev S1100000x64 : Shape := ⟨2, ![1100000, 64]⟩
abbrev S1x64 : Shape := ⟨2, ![1, 64]⟩
abbrev S64x128 : Shape := ⟨2, ![64, 128]⟩
abbrev S1x128 : Shape := ⟨2, ![1, 128]⟩
abbrev S1x1 : Shape := ⟨2, ![1, 1]⟩
abbrev S100000x128 : Shape := ⟨2, ![100000, 128]⟩
abbrev S5000x64 : Shape := ⟨2, ![5000, 64]⟩
abbrev S5000x128 : Shape := ⟨2, ![5000, 128]⟩
abbrev S100000x1 : Shape := ⟨2, ![100000, 1]⟩

abbrev nBuf : Space → Nat
  | .hbm => 110
  | .vmem => 21
  | .smem => 0
  | _ => 0

abbrev bufTy : (tb : Table) → Fin (tcTables nBuf tb) → BufTy
  | .hbm, ⟨0, _⟩ => ⟨S100000x3, .f32⟩
  | .hbm, ⟨1, _⟩ => ⟨S100000x18, .f32⟩
  | .hbm, ⟨2, _⟩ => ⟨S2x1000000, .i32⟩
  | .hbm, ⟨3, _⟩ => ⟨S1000000, .f32⟩
  | .hbm, ⟨4, _⟩ => ⟨S3x64, .f32⟩
  | .hbm, ⟨5, _⟩ => ⟨S64, .f32⟩
  | .hbm, ⟨6, _⟩ => ⟨S18x64, .f32⟩
  | .hbm, ⟨7, _⟩ => ⟨S64, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x1000000, .i32⟩
  | .hbm, ⟨13, _⟩ => ⟨S1000000, .i32⟩
  | .hbm, ⟨14, _⟩ => ⟨S1x1000000, .i32⟩
  | .hbm, ⟨15, _⟩ => ⟨S1000000, .i32⟩
  | .hbm, ⟨16, _⟩ => ⟨S100000, .i32⟩
  | .hbm, ⟨17, _⟩ => ⟨S1100000, .i32⟩
  | .hbm, ⟨18, _⟩ => ⟨S1100000, .i32⟩
  | .hbm, ⟨19, _⟩ => ⟨S_, .f32⟩
  | .hbm, ⟨20, _⟩ => ⟨S100000, .f32⟩
  | .hbm, ⟨21, _⟩ => ⟨S1100000, .f32⟩
  | .hbm, ⟨22, _⟩ => ⟨S_, .f32⟩
  | .hbm, ⟨23, _⟩ => ⟨S100000, .f32⟩
  | .hbm, ⟨24, _⟩ => ⟨S1100000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1100000, .i32⟩
  | .hbm, ⟨36, _⟩ => ⟨S1100000, .i1⟩
  | .hbm, ⟨37, _⟩ => ⟨S_, .i32⟩
  | .hbm, ⟨38, _⟩ => ⟨S1100000, .i32⟩
  | .hbm, ⟨39, _⟩ => ⟨S1100000, .i32⟩
  | .hbm, ⟨40, _⟩ => ⟨S1100000, .i32⟩
  | .hbm, ⟨41, _⟩ => ⟨S1100000x1, .i32⟩
  | .hbm, ⟨42, _⟩ => ⟨S1100000, .f32⟩
  | .hbm, ⟨43, _⟩ => ⟨S1100000, .f32⟩
  | .hbm, ⟨44, _⟩ => ⟨S_, .i32⟩
  | .hbm, ⟨45, _⟩ => ⟨S1100000, .i32⟩
  | .hbm, ⟨46, _⟩ => ⟨S1100000, .i1⟩
  | .hbm, ⟨47, _⟩ => ⟨S_, .i32⟩
  | .hbm, ⟨48, _⟩ => ⟨S1100000, .i32⟩
  | .hbm, ⟨49, _⟩ => ⟨S1100000, .i32⟩
  | .hbm, ⟨50, _⟩ => ⟨S1100000, .i32⟩
  | .hbm, ⟨51, _⟩ => ⟨S1100000x1, .i32⟩
  | .hbm, ⟨52, _⟩ => ⟨S1100000, .f32⟩
  | .hbm, ⟨53, _⟩ => ⟨S1100000, .f32⟩
  | .hbm, ⟨54, _⟩ => ⟨S100000x64, .f32⟩
  | .hbm, ⟨55, _⟩ => ⟨S100000x64, .f32⟩
  | .hbm, ⟨56, _⟩ => ⟨S1100000x1, .f32⟩
  | .hbm, ⟨57, _⟩ => ⟨S_, .i32⟩
  | .hbm, ⟨58, _⟩ => ⟨S1100000, .i32⟩
  | .hbm, ⟨59, _⟩ => ⟨S1100000, .i1⟩
  | .hbm, ⟨60, _⟩ => ⟨S_, .i32⟩
  | .hbm, ⟨61, _⟩ => ⟨S1100000, .i32⟩
  | .hbm, ⟨62, _⟩ => ⟨S1100000, .i32⟩
  | .hbm, ⟨63, _⟩ => ⟨S1100000, .i32⟩
  | .hbm, ⟨64, _⟩ => ⟨S1100000x1, .i32⟩
  | .hbm, ⟨65, _⟩ => ⟨S1100000x64, .f32⟩
  | .hbm, ⟨66, _⟩ => ⟨S1100000x64, .f32⟩
  | .hbm, ⟨67, _⟩ => ⟨S1100000x64, .f32⟩
  | .hbm, ⟨68, _⟩ => ⟨S1100000x1, .f32⟩
  | .hbm, ⟨69, _⟩ => ⟨S_, .i32⟩
  | .hbm, ⟨70, _⟩ => ⟨S1100000, .i32⟩
  | .hbm, ⟨71, _⟩ => ⟨S1100000, .i1⟩
  | .hbm, ⟨72, _⟩ => ⟨S_, .i32⟩
  | .hbm, ⟨73, _⟩ => ⟨S1100000, .i32⟩
  | .hbm, ⟨74, _⟩ => ⟨S1100000, .i32⟩
  | .hbm, ⟨75, _⟩ => ⟨S1100000, .i32⟩
  | .hbm, ⟨76, _⟩ => ⟨S1100000x1, .i32⟩
  | .hbm, ⟨77, _⟩ => ⟨S1100000x64, .f32⟩
  | .hbm, ⟨78, _⟩ => ⟨S1100000x64, .f32⟩
  | .hbm, ⟨79, _⟩ => ⟨S1100000x64, .f32⟩
  | .hbm, ⟨80, _⟩ => ⟨S_, .f32⟩
  | .hbm, ⟨81, _⟩ => ⟨S100000x64, .f32⟩
  | .hbm, ⟨82, _⟩ => ⟨S1100000x1, .i32⟩
  | .hbm, ⟨83, _⟩ => ⟨S100000x64, .f32⟩
  | .hbm, ⟨84, _⟩ => ⟨S_, .f32⟩
  | .hbm, ⟨85, _⟩ => ⟨S100000x64, .f32⟩
  | .hbm, ⟨86, _⟩ => ⟨S1100000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S64x128, .f32⟩
  | .hbm, ⟨95, _⟩ => ⟨S64x128, .f32⟩
  | .hbm, ⟨96, _⟩ => ⟨S_, .f32⟩
  | .hbm, ⟨97, _⟩ => ⟨S128x128, .f32⟩
  | .hbm, ⟨98, _⟩ => ⟨S_, .i32⟩
  | .hbm, ⟨99, _⟩ => ⟨S1, .i32⟩
  | .hbm, ⟨100, _⟩ => ⟨S128x128, .f32⟩
  | .hbm, ⟨101, _⟩ => ⟨S_, .f32⟩
  | .hbm, ⟨102, _⟩ => ⟨S1x128, .f32⟩
  | .hbm, ⟨103, _⟩ => ⟨S1x1, .f32⟩
  | .hbm, ⟨104, _⟩ => ⟨S_, .i32⟩
  | .hbm, ⟨105, _⟩ => ⟨S1, .i32⟩
  | .hbm, ⟨106, _⟩ => ⟨S1x128, .f32⟩
  | .hbm, ⟨107, _⟩ => ⟨S1x128, .f32⟩
  | .hbm, ⟨108, _⟩ => ⟨S100000x128, .f32⟩
  | .hbm, ⟨109, _⟩ => ⟨S100000x1, .f32⟩
  | .local _ .vmem, ⟨0, _⟩ => ⟨S10000x3, .f32⟩
  | .local _ .vmem, ⟨1, _⟩ => ⟨S10000x3, .f32⟩
  | .local _ .vmem, ⟨2, _⟩ => ⟨S3x64, .f32⟩
  | .local _ .vmem, ⟨3, _⟩ => ⟨S10000x64, .f32⟩
  | .local _ .vmem, ⟨4, _⟩ => ⟨S10000x64, .f32⟩
  | .local _ .vmem, ⟨5, _⟩ => ⟨S10000x18, .f32⟩
  | .local _ .vmem, ⟨6, _⟩ => ⟨S10000x18, .f32⟩
  | .local _ .vmem, ⟨7, _⟩ => ⟨S18x64, .f32⟩
  | .local _ .vmem, ⟨8, _⟩ => ⟨S10000x64, .f32⟩
  | .local _ .vmem, ⟨9, _⟩ => ⟨S10000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x128, .f32⟩
  | .local _ .vmem, ⟨15, _⟩ => ⟨S64x128, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_6 : Ref sig .tc := ⟨.hbm, 57, rfl⟩
abbrev main_v35 : Ref sig .tc := ⟨.hbm, 58, rfl⟩
abbrev main_v36 : Ref sig .tc := ⟨.hbm, 59, rfl⟩
abbrev main_c_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_8 : Ref sig .tc := ⟨.hbm, 69, rfl⟩
abbrev main_v45 : Ref sig .tc := ⟨.hbm, 70, rfl⟩
abbrev main_v46 : Ref sig .tc := ⟨.hbm, 71, rfl⟩
abbrev main_c_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_11 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_12 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_cst_14 : Ref sig .tc := ⟨.hbm, 101, rfl⟩
abbrev main_v71 : Ref sig .tc := ⟨.hbm, 102, rfl⟩
abbrev main_v72 : Ref sig .tc := ⟨.hbm, 103, rfl⟩
abbrev main_c_15 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg7_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem7_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x18 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S18x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S100000 : S_.BroadcastsInDim S100000 (![] : Fin 0 → Fin S100000.rank)
  bcast_S1100000_S1100000x1_0 : S1100000.BroadcastsInDim S1100000x1 (![0] : Fin 1 → Fin S1100000x1.rank)
  bcast_S_S1100000 : S_.BroadcastsInDim S1100000 (![] : Fin 0 → Fin S1100000.rank)
  inb_S10000x3_S10000x3_0_0 : ∀ a, (![0, 0] : Fin 2 → Nat) a + S10000x3.size a ≤ S10000x3.size a
  h_S10000x3 : 0 < S10000x3.numel
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  inb_S10000x64_S10000x64_0_0 : ∀ a, (![0, 0] : Fin 2 → Nat) a + S10000x64.size a ≤ S10000x64.size a
  h_S10000x64 : 0 < S10000x64.numel
  inb_S10000x18_S10000x18_0_0 : ∀ a, (![0, 0] : Fin 2 → Nat) a + S10000x18.size a ≤ S10000x18.size a
  h_S10000x18 : 0 < S10000x18.numel
  inb_S18x64_S18x64_0_0 : ∀ a, (![0, 0] : Fin 2 → Nat) a + S18x64.size a ≤ S18x64.size a
  h_S18x64 : 0 < S18x64.numel
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S128x128_S64x128_0_0 : S128x128.Slices ![0, 0] S64x128
  slices_S128x128_S64x128_64_0 : S128x128.Slices ![64, 0] S64x128
  bcast_S_S128x128 : S_.BroadcastsInDim S128x128 (![] : Fin 0 → Fin S128x128.rank)
  bcast_S_S1 : S_.BroadcastsInDim S1 (![] : Fin 0 → Fin S1.rank)
  bcast_S_S1x128 : S_.BroadcastsInDim S1x128 (![] : Fin 0 → Fin S1x128.rank)
  bcast_S1_S1x1_1 : S1.BroadcastsInDim S1x1 (![1] : Fin 1 → Fin S1x1.rank)
  bcast_S128_S1x128_1 : S128.BroadcastsInDim S1x128 (![1] : Fin 1 → Fin S1x128.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x128_S5000x128_0_0 : ∀ a, (![0, 0] : Fin 2 → Nat) a + S5000x128.size a ≤ S5000x128.size a
  h_S5000x128 : 0 < S5000x128.numel
  slices_S100000x128_S100000x1_0_0 : S100000x128.Slices ![0, 0] S100000x1
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S10000x3_S3x64_S10000x64_1_0_0_1_n_n_wf : DotDims.WF S10000x3 S3x64 S10000x64 [1] [0] [0] [1] [] []
  dot_S10000x18_S18x64_S10000x64_1_0_0_1_n_n_wf : DotDims.WF S10000x18 S18x64 S10000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  scatter_S128x128_S1_S128x1_01_n_1_0_wf : ScatterDims.WF S128x128 S1 S128x1 [0, 1] [] [1] 0
  scatter_S1x128_S1_S1x1_01_n_1_0_wf : ScatterDims.WF S1x128 S1 S1x1 [0, 1] [] [1] 0
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S100000x3.size a
  hwx0_0 : ∀ i : grid0.Coords, EltTy.bits .f32 = 32 ∨ (Rect.block (s := S100000x3) S10000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x18.size a ≤ S100000x18.size a
  hwx1_0 : ∀ i : grid1.Coords, EltTy.bits .f32 = 32 ∨ (Rect.block (s := S100000x18) S10000x18.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S18x64.size a ≤ S18x64.size a
  hwx1_1 : ∀ i : grid1.Coords, EltTy.bits .f32 = 32 ∨ (Rect.block (s := S18x64) S18x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S10000x3_S3x64_S10000x64_1_0_0_1_n_n : DotDims S10000x3 S3x64 S10000x64 where
  lhsContracting := [1]
  rhsContracting := [0]
  lhsNonContracting := [0]
  rhsNonContracting := [1]
  lhsBatch := []
  rhsBatch := []
  wf := dot_S10000x3_S3x64_S10000x64_1_0_0_1_n_n_wf
def dot_S10000x18_S18x64_S10000x64_1_0_0_1_n_n : DotDims S10000x18 S18x64 S10000x64 where
  lhsContracting := [1]
  rhsContracting := [0]
  lhsNonContracting := [0]
  rhsNonContracting := [1]
  lhsBatch := []
  rhsBatch := []
  wf := dot_S10000x18_S18x64_S10000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def scatter_S128x128_S1_S128x1_01_n_1_0 : ScatterDims S128x128 S1 S128x1 where
  updateWindowDims := [0, 1]
  insertedWindowDims := []
  scatterDimsToOperandDims := [1]
  indexVectorDim := 0
  wf := scatter_S128x128_S1_S128x1_01_n_1_0_wf
def scatter_S1x128_S1_S1x1_01_n_1_0 : ScatterDims S1x128 S1 S1x1 where
  updateWindowDims := [0, 1]
  insertedWindowDims := []
  scatterDimsToOperandDims := [1]
  indexVectorDim := 0
  wf := scatter_S1x128_S1_S1x1_01_n_1_0_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S10000x18.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S18x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v62) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v66) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v75) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v74) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v76) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x3 : Shape := ⟨2, ![100000, 3]⟩
abbrev S100000x18 : Shape := ⟨2, ![100000, 18]⟩
abbrev S2x1000000 : Shape := ⟨2, ![2, 1000000]⟩
abbrev S1000000 : Shape := ⟨1, ![1000000]⟩
abbrev S3x64 : Shape := ⟨2, ![3, 64]⟩
abbrev S64 : Shape := ⟨1, ![64]⟩
abbrev S18x64 : Shape := ⟨2, ![18, 64]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000x64 : Shape := ⟨2, ![100000, 64]⟩
abbrev S1x1000000 : Shape := ⟨2, ![1, 1000000]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S1x64 : Shape := ⟨2, ![1, 64]⟩
abbrev S100000x128 : Shape := ⟨2, ![100000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 150
  | .vmem => 0
  | .smem => 0
  | _ => 0

abbrev hbmTy0_0 (i : Nat) : BufTy := match i % 128 with
  | 0 => ⟨S100000x3, .f32⟩
  | 1 => ⟨S100000x18, .f32⟩
  | 2 => ⟨S2x1000000, .i32⟩
  | 3 => ⟨S1000000, .f32⟩
  | 4 => ⟨S3x64, .f32⟩
  | 5 => ⟨S64, .f32⟩
  | 6 => ⟨S18x64, .f32⟩
  | 7 => ⟨S64, .f32⟩
  | 8 => ⟨S128x128, .f32⟩
  | 9 => ⟨S128, .f32⟩
  | 10 => ⟨S128x1, .f32⟩
  | 11 => ⟨S1, .f32⟩
  | 12 => ⟨S100000x64, .f32⟩
  | 13 => ⟨S1x1000000, .i32⟩
  | 14 => ⟨S1000000, .i32⟩
  | 15 => ⟨S100000, .i32⟩
  | 16 => ⟨S1100000, .i32⟩
  | 17 => ⟨S1x1000000, .i32⟩
  | 18 => ⟨S1000000, .i32⟩
  | 19 => ⟨S100000, .i32⟩
  | 20 => ⟨S1100000, .i32⟩
  | 21 => ⟨S_, .f32⟩
  | 22 => ⟨S100000, .f32⟩
  | 23 => ⟨S1100000, .f32⟩
  | 24 => ⟨S_, .f32⟩
  | 25 => ⟨S100000, .f32⟩
  | 26 => ⟨S1100000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1100000, .i32⟩
  | 38 => ⟨S1100000, .i1⟩
  | 39 => ⟨S_, .i32⟩
  | 40 => ⟨S1100000, .i32⟩
  | 41 => ⟨S1100000, .i32⟩
  | 42 => ⟨S1100000, .i32⟩
  | 43 => ⟨S1100000x1, .i32⟩
  | 44 => ⟨S1100000, .f32⟩
  | 45 => ⟨S1100000, .f32⟩
  | 46 => ⟨S_, .i32⟩
  | 47 => ⟨S1100000, .i32⟩
  | 48 => ⟨S1100000, .i1⟩
  | 49 => ⟨S_, .i32⟩
  | 50 => ⟨S1100000, .i32⟩
  | 51 => ⟨S1100000, .i32⟩
  | 52 => ⟨S1100000, .i32⟩
  | 53 => ⟨S1100000x1, .i32⟩
  | 54 => ⟨S1100000, .f32⟩
  | 55 => ⟨S1100000, .f32⟩
  | 56 => ⟨S1100000x1, .f32⟩
  | 57 => ⟨S_, .i32⟩
  | 58 => ⟨S1100000, .i32⟩
  | 59 => ⟨S1100000, .i1⟩
  | 60 => ⟨S_, .i32⟩
  | 61 => ⟨S1100000, .i32⟩
  | 62 => ⟨S1100000, .i32⟩
  | 63 => ⟨S1100000, .i32⟩
  | 64 => ⟨S1100000x1, .i32⟩
  | 65 => ⟨S1100000x64, .f32⟩
  | 66 => ⟨S1100000x64, .f32⟩
  | 67 => ⟨S1100000x64, .f32⟩
  | 68 => ⟨S_, .f32⟩
  | 69 => ⟨S100000x64, .f32⟩
  | 70 => ⟨S1100000x1, .i32⟩
  | 71 => ⟨S100000x64, .f32⟩
  | 72 => ⟨S1x64, .f32⟩
  | 73 => ⟨S100000x64, .f32⟩
  | 74 => ⟨S100000x64, .f32⟩
  | 75 => ⟨S100000x64, .f32⟩
  | 76 => ⟨S1x1000000, .i32⟩
  | 77 => ⟨S1000000, .i32⟩
  | 78 => ⟨S100000, .i32⟩
  | 79 => ⟨S1100000, .i32⟩
  | 80 => ⟨S1x1000000, .i32⟩
  | 81 => ⟨S1000000, .i32⟩
  | 82 => ⟨S100000, .i32⟩
  | 83 => ⟨S1100000, .i32⟩
  | 84 => ⟨S_, .f32⟩
  | 85 => ⟨S100000, .f32⟩
  | 86 => ⟨S1100000, .f32⟩
  | 87 => ⟨S_, .f32⟩
  | 88 => ⟨S100000, .f32⟩
  | 89 => ⟨S1100000x1, .i32⟩
  | 90 => ⟨S100000, .f32⟩
  | 91 => ⟨S_, .f32⟩
  | 92 => ⟨S100000, .f32⟩
  | 93 => ⟨S100000, .i1⟩
  | 94 => ⟨S100000, .f32⟩
  | 95 => ⟨S_, .f32⟩
  | 96 => ⟨S_, .f32⟩
  | 97 => ⟨S100000, .f32⟩
  | 98 => ⟨S100000, .f32⟩
  | 99 => ⟨S_, .i32⟩
  | 100 => ⟨S1100000, .i32⟩
  | 101 => ⟨S1100000, .i1⟩
  | 102 => ⟨S_, .i32⟩
  | 103 => ⟨S1100000, .i32⟩
  | 104 => ⟨S1100000, .i32⟩
  | 105 => ⟨S1100000, .i32⟩
  | 106 => ⟨S1100000x1, .i32⟩
  | 107 => ⟨S1100000, .f32⟩
  | 108 => ⟨S1100000, .f32⟩
  | 109 => ⟨S_, .i32⟩
  | 110 => ⟨S1100000, .i32⟩
  | 111 => ⟨S1100000, .i1⟩
  | 112 => ⟨S_, .i32⟩
  | 113 => ⟨S1100000, .i32⟩
  | 114 => ⟨S1100000, .i32⟩
  | 115 => ⟨S1100000, .i32⟩
  | 116 => ⟨S1100000x1, .i32⟩
  | 117 => ⟨S1100000, .f32⟩
  | 118 => ⟨S1100000, .f32⟩
  | 119 => ⟨S1100000x1, .f32⟩
  | 120 => ⟨S_, .i32⟩
  | 121 => ⟨S1100000, .i32⟩
  | 122 => ⟨S1100000, .i1⟩
  | 123 => ⟨S_, .i32⟩
  | 124 => ⟨S1100000, .i32⟩
  | 125 => ⟨S1100000, .i32⟩
  | 126 => ⟨S1100000, .i32⟩
  | 127 => ⟨S1100000x1, .i32⟩
  | _ => ⟨S100000x3, .f32⟩

abbrev hbmTy0_1 (i : Nat) : BufTy := match i % 128 with
  | 0 => ⟨S1100000x64, .f32⟩
  | 1 => ⟨S1100000x64, .f32⟩
  | 2 => ⟨S1100000x64, .f32⟩
  | 3 => ⟨S_, .f32⟩
  | 4 => ⟨S100000x64, .f32⟩
  | 5 => ⟨S1100000x1, .i32⟩
  | 6 => ⟨S100000x64, .f32⟩
  | 7 => ⟨S1x64, .f32⟩
  | 8 => ⟨S100000x64, .f32⟩
  | 9 => ⟨S100000x64, .f32⟩
  | 10 => ⟨S100000x128, .f32⟩
  | 11 => ⟨S100000x128, .f32⟩
  | 12 => ⟨S1x128, .f32⟩
  | 13 => ⟨S100000x128, .f32⟩
  | 14 => ⟨S100000x128, .f32⟩
  | 15 => ⟨S_, .f32⟩
  | 16 => ⟨S100000x128, .f32⟩
  | 17 => ⟨S100000x128, .f32⟩
  | 18 => ⟨S100000x1, .f32⟩
  | 19 => ⟨S1x1, .f32⟩
  | 20 => ⟨S100000x1, .f32⟩
  | 21 => ⟨S100000x1, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_6 : Ref sig .tc := ⟨.hbm, 57, rfl⟩
abbrev main_v35 : Ref sig .tc := ⟨.hbm, 58, rfl⟩
abbrev main_v36 : Ref sig .tc := ⟨.hbm, 59, rfl⟩
abbrev main_c_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_9 : Ref sig .tc := ⟨.hbm, 84, rfl⟩
abbrev main_v59 : Ref sig .tc := ⟨.hbm, 85, rfl⟩
abbrev main_v60 : Ref sig .tc := ⟨.hbm, 86, rfl⟩
abbrev main_cst_10 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_11 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_12 : Ref sig .tc := ⟨.hbm, 95, rfl⟩
abbrev main_call1_v0 : Ref sig .tc := ⟨.hbm, 96, rfl⟩
abbrev main_call1_v1 : Ref sig .tc := ⟨.hbm, 97, rfl⟩
abbrev main_v67 : Ref sig .tc := ⟨.hbm, 98, rfl⟩
abbrev main_c_13 : Ref sig .tc := ⟨.hbm, 99, rfl⟩
abbrev main_v68 : Ref sig .tc := ⟨.hbm, 100, rfl⟩
abbrev main_v69 : Ref sig .tc := ⟨.hbm, 101, rfl⟩
abbrev main_c_14 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_15 : Ref sig .tc := ⟨.hbm, 109, rfl⟩
abbrev main_v76 : Ref sig .tc := ⟨.hbm, 110, rfl⟩
abbrev main_v77 : Ref sig .tc := ⟨.hbm, 111, rfl⟩
abbrev main_c_16 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_c_17 : Ref sig .tc := ⟨.hbm, 120, rfl⟩
abbrev main_v85 : Ref sig .tc := ⟨.hbm, 121, rfl⟩
abbrev main_v86 : Ref sig .tc := ⟨.hbm, 122, rfl⟩
abbrev main_c_18 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_19 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_call2_cst : Ref sig .tc := ⟨.hbm, 143, rfl⟩
abbrev main_call2_v0 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S100000 : S_.BroadcastsInDim S100000 (![] : Fin 0 → Fin S100000.rank)
  bcast_S1100000_S1100000x1_0 : S1100000.BroadcastsInDim S1100000x1 (![0] : Fin 1 → Fin S1100000x1.rank)
  bcast_S_S1100000 : S_.BroadcastsInDim S1100000 (![] : Fin 0 → Fin S1100000.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x64_S100000x64_S100000x128_d1 : Shape.Concatenates [S100000x64, S100000x64] S100000x128 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x3_S3x64_S100000x64_1_0_0_1_n_n_wf : DotDims.WF S100000x3 S3x64 S100000x64 [1] [0] [0] [1] [] []
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S100000x18_S18x64_S100000x64_1_0_0_1_n_n_wf : DotDims.WF S100000x18 S18x64 S100000x64 [1] [0] [0] [1] [] []
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def dot_S100000x3_S3x64_S100000x64_1_0_0_1_n_n : DotDims S100000x3 S3x64 S100000x64 where
  lhsContracting := [1]
  rhsContracting := [0]
  lhsNonContracting := [0]
  rhsNonContracting := [1]
  lhsBatch := []
  rhsBatch := []
  wf := dot_S100000x3_S3x64_S100000x64_1_0_0_1_n_n_wf
def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S100000x18_S18x64_S100000x64_1_0_0_1_n_n : DotDims S100000x18 S18x64 S100000x64 where
  lhsContracting := [1]
  rhsContracting := [0]
  lhsNonContracting := [0]
  rhsNonContracting := [1]
  lhsBatch := []
  rhsBatch := []
  wf := dot_S100000x18_S18x64_S100000x64_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelRun.lean ====
/-
  The idealized kernel's run, with its result named.

  @main is eight segments: three stretches of host operations (the edge lists with their self loops, the degrees by a
  scatter-add, their inverse square roots, the per-edge normalisation), the two feature transforms `x · W` as grid
  kernels, a fourth stretch (gather the transformed rows along the edges, scale, scatter-add into the target nodes,
  add the bias; cut and pad the head's weights), the head as a third grid kernel, and a last slice that keeps column 0.
  The buffers' contents at each boundary are a fold through those segments, ending at `W8`. Every weakly fair execution
  terminates with every unscoped buffer at that fold; here the result buffer is kept in the post beside the twelve
  argument arrays, which nothing writes.
-/
import proofs.«129203_j89524298318419_1_alg».proof.Proof.Gen.KernelIdeal.Frame

set_option maxRecDepth 16384

noncomputable section

namespace Cert.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the kernel's @main terminates, nothing faulting;
    the result buffer ends at the last boundary's contents and the argument arrays end as launched. -/
theorem kernel_run : θ_run defs (onTc (τ := τ) (main (F := F))) ⟨m, fun _ => 0, ρ⟩ (fun r => ∀ c : Dev nD,
      r.2.mem ((c.tc : Thread nD τ).loc main_v77) = W8 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v77 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c)⟩)

end Cert.Bridge

end
-- ==== Proof.HostA.lean ====
/-
  The host operations before the first grid kernel, stage by stage, against the reference's own stages.

  Both programs lay the edge lists out the same way: the source and target lists each followed by the self loops
  `0, 1, …, N − 1`, the edge weights followed by N ones; the degree of a node is the sum of the weights of the edges
  that end in it (a scatter-add into zeros), its inverse square root is kept where the degree is positive and replaced by
  zero elsewhere, and the normalisation of an edge is `dinv[source] · weight · dinv[target]`, the two lookups by a gather
  whose indices are first wrapped (`i + N` where `i < 0`). The kernel's text and the reference's are the same operations
  on the same arrays, so each buffer holds the reference's stage: by unfolding, one stretch of operations at a time.
-/
import proofs.«129203_j89524298318419_1_alg».proof.Proof.Gen.KernelIdeal.Frame
import proofs.«129203_j89524298318419_1_alg».proof.Proof.Gen.ReferenceIdeal.Read
import Idealize.ShloMosaic.Lib.StableHlo.Run
import Idealize.ShloMosaic.PureOps.Ideal

set_option maxRecDepth 16384

noncomputable section

namespace Cert.Bridge

open Cert.KernelIdeal Cert.KernelIdeal.Gen
open Idealize.ShloMosaic Idealize.ShloMosaic.TcCoe Idealize.ShloMosaic.StableHlo Idealize.ShloMosaic.ValueIdx
open Idealize.SL.Sem
open Cert.ReferenceIdeal.Read (val_main_v0 val_main_v4 val_main_v8 val_main_v33 val_main_v49 val_main_v50 val_main_v99)

variable (m : (ℓ : Loc nD τ sig) → Buf (Elt Ideal) ℓ) (ρ : Dev nD → PrngReg) (c : Dev nD)

/-! ## The first stretch: edge lists, weights, degrees -/

/-- The source list with the self loops behind it. -/
theorem W1_row : W1 m ρ c (Proc.devRef .tc main_v5) = Cert.ReferenceIdeal.Read.val_main_v4 (F := Ideal) (m ((c : Thread nD τ).loc main_arg2)) := by
  show StableHlo.after hostOps0 (W0 m ρ c) (Proc.devRef .tc main_v5) = _
  dsimp only [hostOps0]
  after_results_simp
  rfl

/-- The target list with the self loops behind it. -/
theorem W1_col : W1 m ρ c (Proc.devRef .tc main_v6) = Cert.ReferenceIdeal.Read.val_main_v8 (F := Ideal) (m ((c : Thread nD τ).loc main_arg2)) := by
  show StableHlo.after hostOps0 (W0 m ρ c) (Proc.devRef .tc main_v6) = _
  dsimp only [hostOps0]
  after_results_simp
  rfl

/-- The edge weights with the self loops' ones behind them. -/
theorem W1_ew : W1 m ρ c (Proc.devRef .tc main_v8) = Cert.ReferenceIdeal.Read.val_main_v10 (F := Ideal) (m ((c : Thread nD τ).loc main_arg3)) := by
  show StableHlo.after hostOps0 (W0 m ρ c) (Proc.devRef .tc main_v8) = _
  dsimp only [hostOps0]
  after_results_simp
  rfl

/-- Where the degree is positive. -/
theorem W1_pos : W1 m ρ c (Proc.devRef .tc main_v13) = Cert.ReferenceIdeal.Read.val_main_v15 (F := Ideal) (m ((c : Thread nD τ).loc main_arg2)) (m ((c : Thread nD τ).loc main_arg3)) := by
  show StableHlo.after hostOps0 (W0 m ρ c) (Proc.devRef .tc main_v13) = _
  dsimp only [hostOps0]
  after_results_simp
  rfl

/-- The inverse square root of the degree. -/
theorem W1_rsqrt : W1 m ρ c (Proc.devRef .tc main_v14) = Cert.ReferenceIdeal.Read.val_main_v16 (F := Ideal) (m ((c : Thread nD τ).loc main_arg2)) (m ((c : Thread nD τ).loc main_arg3)) := by
  show StableHlo.after hostOps0 (W0 m ρ c) (Proc.devRef .tc main_v14) = _
  dsimp only [hostOps0]
  after_results_simp
  rfl

/-- The zero that replaces it where the degree is not positive. -/
theorem W1_zero : W1 m ρ c (Proc.devRef .tc main_cst_2) = constant (F := Ideal) S_ .f32 0x00000000#32 := by
  show StableHlo.after hostOps0 (W0 m ρ c) (Proc.devRef .tc main_cst_2) = _
  dsimp only [hostOps0]
  after_results_simp

/-! ## The second stretch: the select -/

/-- The three operations of the select, from any contents: the mask, the value and the broadcast zero. -/
theorem where_stretch (Y : Valuation τ sig (Elt Ideal)) :
    StableHlo.after (hostOps0_1 (F := Ideal)) Y (Proc.devRef .tc main_v15)
      = select (Y (Proc.devRef .tc main_v13)) (Y (Proc.devRef .tc main_v14))
          (broadcastInDim S100000 ![] bcast_S_S100000 (id (Y (Proc.devRef .tc main_cst_2)))) := by
  dsimp only [hostOps0_1]
  after_results_simp
  rfl

theorem where_keeps_row (Y : Valuation τ sig (Elt Ideal)) :
    StableHlo.after (hostOps0_1 (F := Ideal)) Y (Proc.devRef .tc main_v5) = Y (Proc.devRef .tc main_v5) := by
  dsimp only [hostOps0_1]
  after_results_simp
theorem where_keeps_col (Y : Valuation τ sig (Elt Ideal)) :
    StableHlo.after (hostOps0_1 (F := Ideal)) Y (Proc.devRef .tc main_v6) = Y (Proc.devRef .tc main_v6) := by
  dsimp only [hostOps0_1]
  after_results_simp
theorem where_keeps_ew (Y : Valuation τ sig (Elt Ideal)) :
    StableHlo.after (hostOps0_1 (F := Ideal)) Y (Proc.devRef .tc main_v8) = Y (Proc.devRef .tc main_v8) := by
  dsimp only [hostOps0_1]
  after_results_simp

/-- The inverse square roots of the degrees, zero where the degree is not positive. -/
theorem W2_dinv : W2 m ρ c (Proc.devRef .tc main_v15) = Cert.ReferenceIdeal.Read.val_main_v17 (F := Ideal) (m ((c : Thread nD τ).loc main_arg2)) (m ((c : Thread nD τ).loc main_arg3)) := by
  show StableHlo.after hostOps0_1 (W1 m ρ c) (Proc.devRef .tc main_v15) = _
  rw [where_stretch, W1_pos, W1_rsqrt, W1_zero]
  rfl
theorem W2_row : W2 m ρ c (Proc.devRef .tc main_v5) = Cert.ReferenceIdeal.Read.val_main_v4 (F := Ideal) (m ((c : Thread nD τ).loc main_arg2)) := (where_keeps_row (W1 m ρ c)).trans (W1_row m ρ c)
theorem W2_col : W2 m ρ c (Proc.devRef .tc main_v6) = Cert.ReferenceIdeal.Read.val_main_v8 (F := Ideal) (m ((c : Thread nD τ).loc main_arg2)) := (where_keeps_col (W1 m ρ c)).trans (W1_col m ρ c)
theorem W2_ew : W2 m ρ c (Proc.devRef .tc main_v8) = Cert.ReferenceIdeal.Read.val_main_v10 (F := Ideal) (m ((c : Thread nD τ).loc main_arg3)) := (where_keeps_ew (W1 m ρ c)).trans (W1_ew m ρ c)

/-! ## The third stretch: the two lookups and the products -/

/-- The twenty operations of the normalisation, from any contents that hold the reference's stages at the four buffers they
    read. -/
theorem norm_stretch (Y : Valuation τ sig (Elt Ideal))
    (x2 : (⟨S2x1000000, .i32⟩ : BufTy).Contents (Elt Ideal)) (x3 : (⟨S1000000, .f32⟩ : BufTy).Contents (Elt Ideal))
    (hd : Y (Proc.devRef .tc main_v15) = Cert.ReferenceIdeal.Read.val_main_v17 (F := Ideal) x2 x3) (hr : Y (Proc.devRef .tc main_v5) = Cert.ReferenceIdeal.Read.val_main_v4 (F := Ideal) x2)
    (hc : Y (Proc.devRef .tc main_v6) = Cert.ReferenceIdeal.Read.val_main_v8 (F := Ideal) x2) (he : Y (Proc.devRef .tc main_v8) = Cert.ReferenceIdeal.Read.val_main_v10 (F := Ideal) x3) :
    StableHlo.after (hostOps0_2 (F := Ideal)) Y (Proc.devRef .tc main_v31) = Cert.ReferenceIdeal.Read.val_main_v33 (F := Ideal) x2 x3 := by
  dsimp only [hostOps0_2]
  after_results_simp
  rw [hd, hr, hc, he]
  rfl

theorem norm_keeps_row (Y : Valuation τ sig (Elt Ideal)) :
    StableHlo.after (hostOps0_2 (F := Ideal)) Y (Proc.devRef .tc main_v5) = Y (Proc.devRef .tc main_v5) := by
  dsimp only [hostOps0_2]
  after_results_simp
theorem norm_keeps_col (Y : Valuation τ sig (Elt Ideal)) :
    StableHlo.after (hostOps0_2 (F := Ideal)) Y (Proc.devRef .tc main_v6) = Y (Proc.devRef .tc main_v6) := by
  dsimp only [hostOps0_2]
  after_results_simp

/-- The per-edge normalisation, as the first grid kernel finds it. -/
theorem W3_norm : W3 m ρ c (Proc.devRef .tc main_v31) = Cert.ReferenceIdeal.Read.val_main_v33 (F := Ideal) (m ((c : Thread nD τ).loc main_arg2)) (m ((c : Thread nD τ).loc main_arg3)) :=
  norm_stretch (W2 m ρ c) _ _ (W2_dinv m ρ c) (W2_row m ρ c) (W2_col m ρ c) (W2_ew m ρ c)
theorem W3_row : W3 m ρ c (Proc.devRef .tc main_v5) = Cert.ReferenceIdeal.Read.val_main_v4 (F := Ideal) (m ((c : Thread nD τ).loc main_arg2)) := (norm_keeps_row (W2 m ρ c)).trans (W2_row m ρ c)
theorem W3_col : W3 m ρ c (Proc.devRef .tc main_v6) = Cert.ReferenceIdeal.Read.val_main_v8 (F := Ideal) (m ((c : Thread nD τ).loc main_arg2)) := (norm_keeps_col (W2 m ρ c)).trans (W2_col m ρ c)

/-! ## The argument arrays are read, never written -/

theorem W3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  dsimp only [hostOps0, hostOps0_1, hostOps0_2]
  after_results_simp

theorem W3_arg1 : W3 m ρ c (Proc.devRef .tc main_arg1) = m ((c : Thread nD τ).loc main_arg1) := by
  show StableHlo.after hostOps0_2 (StableHlo.after hostOps0_1 (StableHlo.after hostOps0 (W0 m ρ c))) (Proc.devRef .tc main_arg1) = _
  dsimp only [hostOps0, hostOps0_1, hostOps0_2]
  after_results_simp

theorem W3_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  dsimp only [hostOps0, hostOps0_1, hostOps0_2]
  after_results_simp

theorem W3_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  dsimp only [hostOps0, hostOps0_1, hostOps0_2]
  after_results_simp

theorem W3_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  dsimp only [hostOps0, hostOps0_1, hostOps0_2]
  after_results_simp

theorem W3_arg7 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  dsimp only [hostOps0, hostOps0_1, hostOps0_2]
  after_results_simp

theorem W3_arg8 : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  dsimp only [hostOps0, hostOps0_1, hostOps0_2]
  after_results_simp

theorem W3_arg9 : W3 m ρ c (Proc.devRef .tc main_arg9) = m ((c : Thread nD τ).loc main_arg9) := by
  show StableHlo.after hostOps0_2 (StableHlo.after hostOps0_1 (StableHlo.after hostOps0 (W0 m ρ c))) (Proc.devRef .tc main_arg9) = _
  dsimp only [hostOps0, hostOps0_1, hostOps0_2]
  after_results_simp

theorem W3_arg10 : W3 m ρ c (Proc.devRef .tc main_arg10) = m ((c : Thread nD τ).loc main_arg10) := by
  show StableHlo.after hostOps0_2 (StableHlo.after hostOps0_1 (StableHlo.after hostOps0 (W0 m ρ c))) (Proc.devRef .tc main_arg10) = _
  dsimp only [hostOps0, hostOps0_1, hostOps0_2]
  after_results_simp

theorem W3_arg11 : W3 m ρ c (Proc.devRef .tc main_arg11) = m ((c : Thread nD τ).loc main_arg11) := by
  show StableHlo.after hostOps0_2 (StableHlo.after hostOps0_1 (StableHlo.after hostOps0 (W0 m ρ c))) (Proc.devRef .tc main_arg11) = _
  dsimp only [hostOps0, hostOps0_1, hostOps0_2]
  after_results_simp

end Cert.Bridge

end
-- ==== Proof.Blocks0.lean ====
/-
  The first feature transform as ONE function of its two arrays.

  The grid has ten points; point `t` takes rows `10000 t … 10000 t + 9999` of the node features (all their columns), the
  whole weight, and writes rows `10000 t …` of the result: the block's product `x · W`. An entry of that product depends
  on one row of the features and one column of the weight only, so every block is the restriction of the whole-array
  product, and the ten blocks tile the hundred thousand rows: the result array ends at `x · W`, entry by entry.
-/
import proofs.«129203_j89524298318419_1_alg».proof.Proof.Gen.KernelIdeal.Frame
import Idealize.ShloMosaic.Lib.Pipeline.Value
import Idealize.ShloMosaic.Lib.ValueIdx

set_option maxRecDepth 16384

noncomputable section

namespace Cert.Bridge

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

/-- A block's zero offsets, however spelt. -/
theorem zero_offsets : (![0, 0] : Fin 2 → Nat) = fun _ => 0 := funext fun a => by fin_cases a <;> rfl

/-- The product of a feature array with three columns and a 3 × 64 weight: entry `(r, q)` is the sum over the three
    columns `k` of `x (r, k) · w (k, q)`. -/
def prod3 (x : S100000x3.Idx → Elt Ideal .f32) (w : S3x64.Idx → Elt Ideal .f32) : S100000x64.Idx → Elt Ideal .f32 :=
  fun i => ∑ k : Fin 3, x (ix2 (i 0) k) * w (ix2 k (i 1))

/-- The printed index maps over the ten points: features and result move down the rows with the point, the weight
    stays. -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole-array product. -/
theorem block_written0
    (hpay : ∀ (x : Vec Ideal S10000x3 .f32) (w : Vec Ideal S3x64 .f32) (p : Fin 10000) (q : Fin 64),
      k0_pay1 (F := Ideal) x w (ix2 p q) = ∑ k : Fin 3, x (ix2 p k) * w (ix2 k q))
    (c : Dev nD) (t : Fin cfg0.N) :
    (dat0 (F := Ideal) V c).flushed 2 t
      = ((cfg0.win 2).blk t).view.read (Elt Ideal) (prod3 (V c main_arg0) (V c main_arg4)) := by
  show (cfg0.win 2).cut (grid0.coords t) ((dat0 V c).after 2 t) = _
  rw [after0_2]
  unfold out0_2
  rw [View.canon_unit_zero zero_offsets]
  simp only [View.ld_unit_zero (S := S10000x3) zero_offsets, View.ld_unit_zero (S := S3x64) zero_offsets]
  obtain ⟨e0, e1, e2, e3, e4, e5⟩ := index_maps0 t
  funext j
  obtain ⟨p, q, rfl⟩ : ∃ (p : Fin 10000) (q : Fin 64), j = ix2 p q := ⟨j 0, j 1, eq_ix2 j⟩
  show k0_pay1 (iblk0 V c 0 t) (iblk0 V c 1 t) (ix2 p q)
    = prod3 (V c main_arg0) (V c main_arg4) (((cfg0.win 2).blk t).view.emb (ix2 p q))
  refine (hpay _ _ p q).trans ?_
  unfold prod3
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 3 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 3 + 1 * k.val = k.val; omega
    | ⟨1, _⟩ => show win0_1.index t (1 : Fin 2) * 64 + 1 * q.val = win0_2.index t (1 : Fin 2) * 64 + 1 * q.val; omega
  exact congrArg₂ (fun a b : Elt Ideal .f32 => a * b)
    (congrArg (V c main_arg0 : S100000x3.Idx → Elt Ideal .f32) h0)
    (congrArg (V c main_arg4 : S3x64.Idx → Elt Ideal .f32) h1)

/-- An index of the result array is in point `t`'s block iff each coordinate is in the block's range on its axis. -/
theorem mem_block0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v32).slice (win0_2.rect t)).set ↔ _
  rw [View.set_slice_whole, Rect.mem_set_unit]
  exact Iff.rfl

/-- Row `r` of the result is in the block of point `r / 10000`: the ten blocks tile the array. -/
theorem covered0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  have ht : (i 0).val / 10000 < grid0.N := by omega
  refine ⟨⟨(i 0).val / 10000, ht⟩, flush0_2 _, ?_⟩
  rw [mem_block0]
  obtain ⟨e0, e1, e2, e3, e4, e5⟩ := index_maps0 ⟨(i 0).val / 10000, ht⟩
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 64 ≤ (i 1).val
      ∧ (i 1).val < win0_2.index ⟨(i 0).val / 10000, ht⟩ (1 : Fin 2) * 64 + 64
    rw [e5]; omega

/-- The result array of the first transform after its region: the whole-array product of the arrays as the region
    finds them. -/
theorem prod3_final
    (hpay : ∀ (x : Vec Ideal S10000x3 .f32) (w : Vec Ideal S3x64 .f32) (p : Fin 10000) (q : Fin 64),
      k0_pay1 (F := Ideal) x w (ix2 p q) = ∑ k : Fin 3, x (ix2 p k) * w (ix2 k q))
    (c : Dev nD) :
    (dat0 (F := Ideal) V c).arrAt 2 cfg0.N = prod3 (V c main_arg0) (V c main_arg4) :=
  (dat0 V c).arrAt_eq_of_cover 2 _ (fun t _ => block_written0 V hpay c t) covered0

end Cert.Bridge

end
-- ==== Proof.Blocks1.lean ====
/-
  The second feature transform as ONE function of its two arrays.

  The grid has ten points; point `t` takes rows `10000 t … 10000 t + 9999` of the node features (all their columns), the
  whole weight, and writes rows `10000 t …` of the result: the block's product `x · W`. An entry of that product depends
  on one row of the features and one column of the weight only, so every block is the restriction of the whole-array
  product, and the ten blocks tile the hundred thousand rows: the result array ends at `x · W`, entry by entry.
-/
import proofs.«129203_j89524298318419_1_alg».proof.Proof.Gen.KernelIdeal.Frame
import Idealize.ShloMosaic.Lib.Pipeline.Value
import Idealize.ShloMosaic.Lib.ValueIdx

set_option maxRecDepth 16384

noncomputable section

namespace Cert.Bridge

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

/-- A block's zero offsets, however spelt. -/
theorem zero_offsets' : (![0, 0] : Fin 2 → Nat) = fun _ => 0 := funext fun a => by fin_cases a <;> rfl

/-- The product of a feature array with eighteen columns and an 18 × 64 weight: entry `(r, q)` is the sum over the eighteen
    columns `k` of `x (r, k) · w (k, q)`. -/
def prod18 (x : S100000x18.Idx → Elt Ideal .f32) (w : S18x64.Idx → Elt Ideal .f32) : S100000x64.Idx → Elt Ideal .f32 :=
  fun i => ∑ k : Fin 18, x (ix2 (i 0) k) * w (ix2 k (i 1))

/-- The printed index maps over the ten points: features and result move down the rows with the point, the weight
    stays. -/
theorem index_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole-array product. -/
theorem block_written1
    (hpay : ∀ (x : Vec Ideal S10000x18 .f32) (w : Vec Ideal S18x64 .f32) (p : Fin 10000) (q : Fin 64),
      k1_pay1 (F := Ideal) x w (ix2 p q) = ∑ k : Fin 18, x (ix2 p k) * w (ix2 k q))
    (c : Dev nD) (t : Fin cfg1.N) :
    (dat1 (F := Ideal) V c).flushed 2 t
      = ((cfg1.win 2).blk t).view.read (Elt Ideal) (prod18 (V c main_arg1) (V c main_arg6)) := by
  show (cfg1.win 2).cut (grid1.coords t) ((dat1 V c).after 2 t) = _
  rw [after1_2]
  unfold out1_2
  rw [View.canon_unit_zero zero_offsets']
  simp only [View.ld_unit_zero (S := S10000x18) zero_offsets', View.ld_unit_zero (S := S18x64) zero_offsets']
  obtain ⟨e0, e1, e2, e3, e4, e5⟩ := index_maps1 t
  funext j
  obtain ⟨p, q, rfl⟩ : ∃ (p : Fin 10000) (q : Fin 64), j = ix2 p q := ⟨j 0, j 1, eq_ix2 j⟩
  show k1_pay1 (iblk1 V c 0 t) (iblk1 V c 1 t) (ix2 p q)
    = prod18 (V c main_arg1) (V c main_arg6) (((cfg1.win 2).blk t).view.emb (ix2 p q))
  refine (hpay _ _ p q).trans ?_
  unfold prod18
  refine Finset.sum_congr rfl fun k _ => ?_
  have h0 : ((cfg1.win 0).blk t).view.emb (ix2 p k) = ix2 ((((cfg1.win 2).blk t).view.emb (ix2 p q)) 0) k := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 18 + 1 * k.val = k.val; omega
  have h1 : ((cfg1.win 1).blk t).view.emb (ix2 k q) = ix2 k ((((cfg1.win 2).blk t).view.emb (ix2 p q)) 1) := by
    funext a; apply Fin.ext
    match a with
    | ⟨0, _⟩ => show win1_1.index t (0 : Fin 2) * 18 + 1 * k.val = k.val; omega
    | ⟨1, _⟩ => show win1_1.index t (1 : Fin 2) * 64 + 1 * q.val = win1_2.index t (1 : Fin 2) * 64 + 1 * q.val; omega
  exact congrArg₂ (fun a b : Elt Ideal .f32 => a * b)
    (congrArg (V c main_arg1 : S100000x18.Idx → Elt Ideal .f32) h0)
    (congrArg (V c main_arg6 : S18x64.Idx → Elt Ideal .f32) h1)

/-- An index of the result array is in point `t`'s block iff each coordinate is in the block's range on its axis. -/
theorem mem_block1 (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v33).slice (win1_2.rect t)).set ↔ _
  rw [View.set_slice_whole, Rect.mem_set_unit]
  exact Iff.rfl

/-- Row `r` of the result is in the block of point `r / 10000`: the ten blocks tile the array. -/
theorem covered1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : grid1.N = 10 := N_1
  have ht : (i 0).val / 10000 < grid1.N := by omega
  refine ⟨⟨(i 0).val / 10000, ht⟩, flush1_2 _, ?_⟩
  rw [mem_block1]
  obtain ⟨e0, e1, e2, e3, e4, e5⟩ := index_maps1 ⟨(i 0).val / 10000, ht⟩
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, ht⟩ (1 : Fin 2) * 64 ≤ (i 1).val
      ∧ (i 1).val < win1_2.index ⟨(i 0).val / 10000, ht⟩ (1 : Fin 2) * 64 + 64
    rw [e5]; omega

/-- The result array of the second transform after its region: the whole-array product of the arrays as the region
    finds them. -/
theorem prod18_final
    (hpay : ∀ (x : Vec Ideal S10000x18 .f32) (w : Vec Ideal S18x64 .f32) (p : Fin 10000) (q : Fin 64),
      k1_pay1 (F := Ideal) x w (ix2 p q) = ∑ k : Fin 18, x (ix2 p k) * w (ix2 k q))
    (c : Dev nD) :
    (dat1 (F := Ideal) V c).arrAt 2 cfg1.N = prod18 (V c main_arg1) (V c main_arg6) :=
  (dat1 V c).arrAt_eq_of_cover 2 _ (fun t _ => block_written1 V hpay c t) covered1

end Cert.Bridge

end
-- ==== Proof.Payloads.lean ====
import proofs.«129203_j89524298318419_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
noncomputable section
namespace Cert.Bridge
open Cert.KernelIdeal Idealize.ShloMosaic Idealize.ShloMosaic.ValueIdx

/-! ## A matrix product into the zero accumulator, read at an index -/

/-- A [10000,3] by [3,64] matrix product accumulated into the zero matrix, read at row `p` and column `q`: the sum over the
    contracted coordinate `k` of the left factor at `(p, k)` times the right factor at `(k, q)`. -/
theorem matmul_3_apply (a : FVec Ideal S10000x3 .bf16) (b : FVec Ideal S3x64 .bf16) (p : Fin 10000) (q : Fin 64) :
    matmul dot_S10000x3_S3x64_S10000x64_1_0_0_1_n_n none a b (constant (F := Ideal) S10000x64 .f32 0x00000000#32) (ix2 p q)
      = ∑ k : Fin 3, a (ix2 p k) * b (ix2 k q) := by
  simp only [matmul]
  rw [Ideal.matmul_constant_zero_apply, ← Equiv.sum_comp (contrEquiv1 dot_S10000x3_S3x64_S10000x64_1_0_0_1_n_n 3 rfl rfl).symm]
  refine Finset.sum_congr rfl fun k _ => ?_
  have hk := contrEquiv1_symm_val dot_S10000x3_S3x64_S10000x64_1_0_0_1_n_n 3 rfl rfl k
  have el : dot_S10000x3_S3x64_S10000x64_1_0_0_1_n_n.lhsIdx (ix2 p q) ((contrEquiv1 dot_S10000x3_S3x64_S10000x64_1_0_0_1_n_n 3 rfl rfl).symm k) = ix2 p k := funext fun c => Fin.ext (by
    match c with
    | ⟨0, _⟩ =>
      show (dot_S10000x3_S3x64_S10000x64_1_0_0_1_n_n.lhsIdx (ix2 p q) _ 0).val = p.val
      unfold DotDims.lhsIdx
      rw [dif_neg (show ¬(0 : Fin S10000x3.rank) ∈ dot_S10000x3_S3x64_S10000x64_1_0_0_1_n_n.lhsBatch by decide), dif_pos (show (0 : Fin S10000x3.rank) ∈ dot_S10000x3_S3x64_S10000x64_1_0_0_1_n_n.lhsNonContracting by decide)]
      rfl
    | ⟨1, _⟩ => exact (dot_S10000x3_S3x64_S10000x64_1_0_0_1_n_n.lhsIdx_val_of_single rfl _ _).trans hk)
  have er : dot_S10000x3_S3x64_S10000x64_1_0_0_1_n_n.rhsIdx (ix2 p q) ((contrEquiv1 dot_S10000x3_S3x64_S10000x64_1_0_0_1_n_n 3 rfl rfl).symm k) = ix2 k q := funext fun c => Fin.ext (by
    match c with
    | ⟨0, _⟩ => exact (dot_S10000x3_S3x64_S10000x64_1_0_0_1_n_n.rhsIdx_val_of_single rfl _ _).trans hk
    | ⟨1, _⟩ =>
      show (dot_S10000x3_S3x64_S10000x64_1_0_0_1_n_n.rhsIdx (ix2 p q) _ 1).val = q.val
      unfold DotDims.rhsIdx
      rw [dif_neg (show ¬(1 : Fin S3x64.rank) ∈ dot_S10000x3_S3x64_S10000x64_1_0_0_1_n_n.rhsBatch by decide), dif_pos (show (1 : Fin S3x64.rank) ∈ dot_S10000x3_S3x64_S10000x64_1_0_0_1_n_n.rhsNonContracting by decide)]
      rfl)
  rw [el, er]

/-- A [10000,18] by [18,64] matrix product accumulated into the zero matrix, read at row `p` and column `q`: the sum over the
    contracted coordinate `k` of the left factor at `(p, k)` times the right factor at `(k, q)`. -/
theorem matmul_18_apply (a : FVec Ideal S10000x18 .bf16) (b : FVec Ideal S18x64 .bf16) (p : Fin 10000) (q : Fin 64) :
    matmul dot_S10000x18_S18x64_S10000x64_1_0_0_1_n_n none a b (constant (F := Ideal) S10000x64 .f32 0x00000000#32) (ix2 p q)
      = ∑ k : Fin 18, a (ix2 p k) * b (ix2 k q) := by
  simp only [matmul]
  rw [Ideal.matmul_constant_zero_apply, ← Equiv.sum_comp (contrEquiv1 dot_S10000x18_S18x64_S10000x64_1_0_0_1_n_n 18 rfl rfl).symm]
  refine Finset.sum_congr rfl fun k _ => ?_
  have hk := contrEquiv1_symm_val dot_S10000x18_S18x64_S10000x64_1_0_0_1_n_n 18 rfl rfl k
  have el : dot_S10000x18_S18x64_S10000x64_1_0_0_1_n_n.lhsIdx (ix2 p q) ((contrEquiv1 dot_S10000x18_S18x64_S10000x64_1_0_0_1_n_n 18 rfl rfl).symm k) = ix2 p k := funext fun c => Fin.ext (by
    match c with
    | ⟨0, _⟩ =>
      show (dot_S10000x18_S18x64_S10000x64_1_0_0_1_n_n.lhsIdx (ix2 p q) _ 0).val = p.val
      unfold DotDims.lhsIdx
      rw [dif_neg (show ¬(0 : Fin S10000x18.rank) ∈ dot_S10000x18_S18x64_S10000x64_1_0_0_1_n_n.lhsBatch by decide), dif_pos (show (0 : Fin S10000x18.rank) ∈ dot_S10000x18_S18x64_S10000x64_1_0_0_1_n_n.lhsNonContracting by decide)]
      rfl
    | ⟨1, _⟩ => exact (dot_S10000x18_S18x64_S10000x64_1_0_0_1_n_n.lhsIdx_val_of_single rfl _ _).trans hk)
  have er : dot_S10000x18_S18x64_S10000x64_1_0_0_1_n_n.rhsIdx (ix2 p q) ((contrEquiv1 dot_S10000x18_S18x64_S10000x64_1_0_0_1_n_n 18 rfl rfl).symm k) = ix2 k q := funext fun c => Fin.ext (by
    match c with
    | ⟨0, _⟩ => exact (dot_S10000x18_S18x64_S10000x64_1_0_0_1_n_n.rhsIdx_val_of_single rfl _ _).trans hk
    | ⟨1, _⟩ =>
      show (dot_S10000x18_S18x64_S10000x64_1_0_0_1_n_n.rhsIdx (ix2 p q) _ 1).val = q.val
      unfold DotDims.rhsIdx
      rw [dif_neg (show ¬(1 : Fin S18x64.rank) ∈ dot_S10000x18_S18x64_S10000x64_1_0_0_1_n_n.rhsBatch by decide), dif_pos (show (1 : Fin S18x64.rank) ∈ dot_S10000x18_S18x64_S10000x64_1_0_0_1_n_n.rhsNonContracting by decide)]
      rfl)
  rw [el, er]

/-- A [5000,64] by [64,128] matrix product accumulated into the zero matrix, read at row `p` and column `q`: the sum over the
    contracted coordinate `k` of the left factor at `(p, k)` times the right factor at `(k, q)`. -/
theorem matmul_64_apply (a : FVec Ideal S5000x64 .bf16) (b : FVec Ideal S64x128 .bf16) (p : Fin 5000) (q : Fin 128) :
    matmul dot_S5000x64_S64x128_S5000x128_1_0_0_1_n_n none a b (constant (F := Ideal) S5000x128 .f32 0x00000000#32) (ix2 p q)
      = ∑ k : Fin 64, a (ix2 p k) * b (ix2 k q) := by
  simp only [matmul]
  rw [Ideal.matmul_constant_zero_apply, ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q) ((contrEquiv1 dot_S5000x64_S64x128_S5000x128_1_0_0_1_n_n 64 rfl rfl).symm k) = ix2 p k := funext fun c => Fin.ext (by
    match c with
    | ⟨0, _⟩ =>
      show (dot_S5000x64_S64x128_S5000x128_1_0_0_1_n_n.lhsIdx (ix2 p q) _ 0).val = p.val
      unfold DotDims.lhsIdx
      rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
      rfl
    | ⟨1, _⟩ => exact (dot_S5000x64_S64x128_S5000x128_1_0_0_1_n_n.lhsIdx_val_of_single rfl _ _).trans hk)
  have er : dot_S5000x64_S64x128_S5000x128_1_0_0_1_n_n.rhsIdx (ix2 p q) ((contrEquiv1 dot_S5000x64_S64x128_S5000x128_1_0_0_1_n_n 64 rfl rfl).symm k) = ix2 k q := funext fun c => Fin.ext (by
    match c with
    | ⟨0, _⟩ => exact (dot_S5000x64_S64x128_S5000x128_1_0_0_1_n_n.rhsIdx_val_of_single rfl _ _).trans hk
    | ⟨1, _⟩ =>
      show (dot_S5000x64_S64x128_S5000x128_1_0_0_1_n_n.rhsIdx (ix2 p q) _ 1).val = q.val
      unfold DotDims.rhsIdx
      rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
      rfl)
  rw [el, er]

/-- A [5000,128] by [128,128] matrix product accumulated into the zero matrix, read at row `p` and column `q`: the sum over the
    contracted coordinate `k` of the left factor at `(p, k)` times the right factor at `(k, q)`. -/
theorem matmul_128_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun c => Fin.ext (by
    match c with
    | ⟨0, _⟩ =>
      show (dot_S5000x128_S128x128_S5000x128_1_0_0_1_n_n.lhsIdx (ix2 p q) _ 0).val = p.val
      unfold DotDims.lhsIdx
      rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
      rfl
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun c => Fin.ext (by
    match c with
    | ⟨0, _⟩ => exact (dot_S5000x128_S128x128_S5000x128_1_0_0_1_n_n.rhsIdx_val_of_single rfl _ _).trans hk
    | ⟨1, _⟩ =>
      show (dot_S5000x128_S128x128_S5000x128_1_0_0_1_n_n.rhsIdx (ix2 p q) _ 1).val = q.val
      unfold DotDims.rhsIdx
      rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
      rfl)
  rw [el, er]

/-! ## The three stored values, read at an index -/

/-- The first linear layer's stored value at row `p`, column `q`: the narrowing of both factors is the identity on the
    extended reals, so it is the plain sum over the three input features of `x (p, k) * w (k, q)`. -/
theorem lin3_apply (x : Vec Ideal S10000x3 .f32) (w : Vec Ideal S3x64 .f32) (p : Fin 10000) (q : Fin 64) :
    Gen.k0_pay1 (F := Ideal) x w (ix2 p q) = ∑ k : Fin 3, x (ix2 p k) * w (ix2 k q) := by
  unfold Gen.k0_pay1
  exact matmul_3_apply _ _ p q

/-- The second linear layer's stored value at row `p`, column `q`: the sum over the eighteen input features of
    `x (p, k) * w (k, q)`. -/
theorem lin18_apply (x : Vec Ideal S10000x18 .f32) (w : Vec Ideal S18x64 .f32) (p : Fin 10000) (q : Fin 64) :
    Gen.k1_pay1 (F := Ideal) x w (ix2 p q) = ∑ k : Fin 18, x (ix2 p k) * w (ix2 k q) := by
  unfold Gen.k1_pay1
  exact matmul_18_apply _ _ p q

/-- The zero word the rectifier compares against denotes the extended real zero. -/
theorem zero_word : (Scalar.ofBits (F := Ideal) .f32 0x00000000#32 : Ideal .f32) = 0 := Ideal.ofBits_zero_f32

/-- The head's stored value at row `p`, column `q`. The reshapes to the same shape and the narrowings are the identity on the
    extended reals; the hidden unit `k` is the two matrix products `u · w1a` and `mv · w1b` at `(p, k)` added, plus the first
    bias row at `k`, cut off below at zero; the output is the sum over the hidden units of that times `w2 (k, q)`, plus the
    second bias row at `q`. -/
theorem mlp_apply (u mv : Vec Ideal S5000x64 .f32) (w1a w1b : Vec Ideal S64x128 .f32) (b1 : Vec Ideal S1x128 .f32)
    (w2 : Vec Ideal S128x128 .f32) (b2 : Vec Ideal S1x128 .f32) (p : Fin 5000) (q : Fin 128) :
    Gen.k2_pay1 (F := Ideal) u mv w1a w1b b1 w2 b2 (ix2 p q)
      = (∑ k : Fin 128, max ((∑ j : Fin 64, u (ix2 p j) * w1a (ix2 j k)) + (∑ j : Fin 64, mv (ix2 p j) * w1b (ix2 j k)) + b1 (ix2 0 k)) 0 * w2 (ix2 k q)) + b2 (ix2 0 q) := by
  unfold Gen.k2_pay1
  simp only [shapeCast_self]
  rw [addf_apply, matmul_128_apply, broadcastTo_1b_ab_apply]
  refine congrArg (· + b2 (ix2 0 q)) (Finset.sum_congr rfl fun k _ => ?_)
  rw [truncf_apply, truncf_apply, maximumf_apply, addf_apply, addf_apply, matmul_64_apply, matmul_64_apply,
    broadcastTo_1b_ab_apply, broadcast_apply, zero_word]
  rfl

end Cert.Bridge
end
-- ==== Proof.RefProd.lean ====
/-
  The two feature transforms of the reference are the same whole-array products.

  The reference computes `x · W` by one contraction over the feature axis; read at an entry, that is the sum over the
  feature index `k` of `x (r, k) · W (k, q)`, which is the function the kernel's ten blocks assemble.
-/
import proofs.«129203_j89524298318419_1_alg».proof.Proof.Gen.ReferenceIdeal.Read
import proofs.«129203_j89524298318419_1_alg».proof.Proof.Blocks0
import proofs.«129203_j89524298318419_1_alg».proof.Proof.Blocks1

set_option maxRecDepth 16384

noncomputable section

namespace Cert.Bridge

open Cert.KernelIdeal
open Idealize.ShloMosaic Idealize.ShloMosaic.ValueIdx
open Cert.ReferenceIdeal.Read (val_main_v0 val_main_v50 lidx_main_v0 ridx_main_v0 lidx_main_v50 ridx_main_v50)

/-- The reference's first contraction is the product with three columns, entry by entry. -/
theorem prod3_eq_ref (x : S100000x3.Idx → Elt Ideal .f32) (w : S3x64.Idx → Elt Ideal .f32) :
    prod3 x w = val_main_v0 (F := Ideal) x w := by
  funext i
  rw [Cert.ReferenceIdeal.Read.val_main_v0_apply]
  unfold prod3
  refine Finset.sum_congr rfl fun k _ => ?_
  have el : lidx_main_v0 i k = ix2 (i 0) k := funext fun a => by match a with | ⟨0, _⟩ => rfl | ⟨1, _⟩ => rfl
  have er : ridx_main_v0 i k = ix2 k (i 1) := funext fun a => by match a with | ⟨0, _⟩ => rfl | ⟨1, _⟩ => rfl
  exact congrArg₂ (fun a b : Elt Ideal .f32 => a * b) (congrArg x el.symm) (congrArg w er.symm)

/-- The reference's second contraction is the product with eighteen columns, entry by entry. -/
theorem prod18_eq_ref (x : S100000x18.Idx → Elt Ideal .f32) (w : S18x64.Idx → Elt Ideal .f32) :
    prod18 x w = val_main_v50 (F := Ideal) x w := by
  funext i
  rw [Cert.ReferenceIdeal.Read.val_main_v50_apply]
  unfold prod18
  refine Finset.sum_congr rfl fun k _ => ?_
  have el : lidx_main_v50 i k = ix2 (i 0) k := funext fun a => by match a with | ⟨0, _⟩ => rfl | ⟨1, _⟩ => rfl
  have er : ridx_main_v50 i k = ix2 k (i 1) := funext fun a => by match a with | ⟨0, _⟩ => rfl | ⟨1, _⟩ => rfl
  exact congrArg₂ (fun a b : Elt Ideal .f32 => a * b) (congrArg x el.symm) (congrArg w er.symm)

end Cert.Bridge

end
-- ==== Proof.HostB.lean ====
/-
  Between the grid kernels: what the head's seven input arrays hold.

  After the two feature-transform regions their result arrays hold the whole-array products, which are the reference's
  two contractions; nothing else the later operations read has changed. The fourth stretch gathers the transformed rows
  along the edges' sources, scales each by its edge's normalisation, adds them up at the edges' targets (a scatter-add
  into zeros) and adds the bias: operation for operation the reference's aggregation, applied to the same arrays. The
  head's other inputs are the two halves of the first weight (rows 0…63 and 64…127), the first bias as a row, and the
  second weight and bias written into column 0 of zero arrays.
-/
import proofs.«129203_j89524298318419_1_alg».proof.Proof.HostA
import proofs.«129203_j89524298318419_1_alg».proof.Proof.Blocks0
import proofs.«129203_j89524298318419_1_alg».proof.Proof.Blocks1
import proofs.«129203_j89524298318419_1_alg».proof.Proof.Payloads
import proofs.«129203_j89524298318419_1_alg».proof.Proof.RefProd

set_option maxRecDepth 16384

noncomputable section

namespace Cert.Bridge

open Cert.KernelIdeal Cert.KernelIdeal.Gen
open Idealize.ShloMosaic Idealize.ShloMosaic.TcCoe Idealize.ShloMosaic.StableHlo Idealize.ShloMosaic.ValueIdx
open Idealize.SL.Sem
open Cert.ReferenceIdeal.Read (val_main_v0 val_main_v4 val_main_v8 val_main_v33 val_main_v49 val_main_v50 val_main_v99)

variable (m : (ℓ : Loc nD τ sig) → Buf (Elt Ideal) ℓ) (ρ : Dev nD → PrngReg) (c : Dev nD)

/-! ## The reference recomputes the normalisation for its second aggregation: the same stages again -/

theorem row_again (x2 : (⟨S2x1000000, .i32⟩ : BufTy).Contents (Elt Ideal)) :
    Cert.ReferenceIdeal.Read.val_main_v54 (F := Ideal) x2 = Cert.ReferenceIdeal.Read.val_main_v4 (F := Ideal) x2 := rfl
theorem col_again (x2 : (⟨S2x1000000, .i32⟩ : BufTy).Contents (Elt Ideal)) :
    Cert.ReferenceIdeal.Read.val_main_v58 (F := Ideal) x2 = Cert.ReferenceIdeal.Read.val_main_v8 (F := Ideal) x2 := rfl
theorem ew_again (x3 : (⟨S1000000, .f32⟩ : BufTy).Contents (Elt Ideal)) :
    Cert.ReferenceIdeal.Read.val_main_v60 (F := Ideal) x3 = Cert.ReferenceIdeal.Read.val_main_v10 (F := Ideal) x3 := rfl
theorem dinv_again (x2 : (⟨S2x1000000, .i32⟩ : BufTy).Contents (Elt Ideal)) (x3 : (⟨S1000000, .f32⟩ : BufTy).Contents (Elt Ideal)) :
    Cert.ReferenceIdeal.Read.val_main_v67 (F := Ideal) x2 x3 = Cert.ReferenceIdeal.Read.val_main_v17 (F := Ideal) x2 x3 := by
  unfold Cert.ReferenceIdeal.Read.val_main_v67 Cert.ReferenceIdeal.Read.val_main_v17 Cert.ReferenceIdeal.Read.val_main_v65 Cert.ReferenceIdeal.Read.val_main_v15 Cert.ReferenceIdeal.Read.val_main_v66 Cert.ReferenceIdeal.Read.val_main_v16
    Cert.ReferenceIdeal.Read.val_main_v63 Cert.ReferenceIdeal.Read.val_main_v13 Cert.ReferenceIdeal.Read.val_main_v62 Cert.ReferenceIdeal.Read.val_main_v12
  rw [col_again, ew_again]
  rfl
theorem norm_again (x2 : (⟨S2x1000000, .i32⟩ : BufTy).Contents (Elt Ideal)) (x3 : (⟨S1000000, .f32⟩ : BufTy).Contents (Elt Ideal)) :
    Cert.ReferenceIdeal.Read.val_main_v83 (F := Ideal) x2 x3 = Cert.ReferenceIdeal.Read.val_main_v33 (F := Ideal) x2 x3 := by
  unfold Cert.ReferenceIdeal.Read.val_main_v83 Cert.ReferenceIdeal.Read.val_main_v33 Cert.ReferenceIdeal.Read.val_main_v75 Cert.ReferenceIdeal.Read.val_main_v25 Cert.ReferenceIdeal.Read.val_main_v82 Cert.ReferenceIdeal.Read.val_main_v32
    Cert.ReferenceIdeal.Read.val_main_v74 Cert.ReferenceIdeal.Read.val_main_v24 Cert.ReferenceIdeal.Read.val_main_v81 Cert.ReferenceIdeal.Read.val_main_v31 Cert.ReferenceIdeal.Read.val_main_v73 Cert.ReferenceIdeal.Read.val_main_v23
    Cert.ReferenceIdeal.Read.val_main_v80 Cert.ReferenceIdeal.Read.val_main_v30 Cert.ReferenceIdeal.Read.val_main_v72 Cert.ReferenceIdeal.Read.val_main_v22 Cert.ReferenceIdeal.Read.val_main_v79 Cert.ReferenceIdeal.Read.val_main_v29
    Cert.ReferenceIdeal.Read.val_main_v71 Cert.ReferenceIdeal.Read.val_main_v21 Cert.ReferenceIdeal.Read.val_main_v77 Cert.ReferenceIdeal.Read.val_main_v27 Cert.ReferenceIdeal.Read.val_main_v69 Cert.ReferenceIdeal.Read.val_main_v19
  rw [dinv_again, row_again, col_again, ew_again]
  rfl

/-! ## What the two regions leave -/

theorem W5_keeps (b : Ref sig .tc) (h1 : ∀ w, Pipeline.arrRef spec1 w ≠ b) (h0 : ∀ w, Pipeline.arrRef spec0 w ≠ b) :
    W5 m ρ c (Proc.devRef .tc b) = W3 m ρ c (Proc.devRef .tc b) :=
  (W5_of_ne m ρ c b h1).trans (W4_of_ne m ρ c b h0)

theorem W5_norm : W5 m ρ c (Proc.devRef .tc main_v31) = Cert.ReferenceIdeal.Read.val_main_v33 (F := Ideal) (m ((c : Thread nD τ).loc main_arg2)) (m ((c : Thread nD τ).loc main_arg3)) :=
  (W5_keeps m ρ c main_v31 (by decide) (by decide)).trans (W3_norm m ρ c)
theorem W5_row : W5 m ρ c (Proc.devRef .tc main_v5) = Cert.ReferenceIdeal.Read.val_main_v4 (F := Ideal) (m ((c : Thread nD τ).loc main_arg2)) :=
  (W5_keeps m ρ c main_v5 (by decide) (by decide)).trans (W3_row m ρ c)
theorem W5_col : W5 m ρ c (Proc.devRef .tc main_v6) = Cert.ReferenceIdeal.Read.val_main_v8 (F := Ideal) (m ((c : Thread nD τ).loc main_arg2)) :=
  (W5_keeps m ρ c main_v6 (by decide) (by decide)).trans (W3_col m ρ c)
theorem W5_arg5 : W5 m ρ c (Proc.devRef .tc main_arg5) = m ((c : Thread nD τ).loc main_arg5) :=
  (W5_keeps m ρ c main_arg5 (by decide) (by decide)).trans (W3_arg5 m ρ c)
theorem W5_arg7 : W5 m ρ c (Proc.devRef .tc main_arg7) = m ((c : Thread nD τ).loc main_arg7) :=
  (W5_keeps m ρ c main_arg7 (by decide) (by decide)).trans (W3_arg7 m ρ c)
theorem W5_arg8 : W5 m ρ c (Proc.devRef .tc main_arg8) = m ((c : Thread nD τ).loc main_arg8) :=
  (W5_keeps m ρ c main_arg8 (by decide) (by decide)).trans (W3_arg8 m ρ c)
theorem W5_arg9 : W5 m ρ c (Proc.devRef .tc main_arg9) = m ((c : Thread nD τ).loc main_arg9) :=
  (W5_keeps m ρ c main_arg9 (by decide) (by decide)).trans (W3_arg9 m ρ c)
theorem W5_arg10 : W5 m ρ c (Proc.devRef .tc main_arg10) = m ((c : Thread nD τ).loc main_arg10) :=
  (W5_keeps m ρ c main_arg10 (by decide) (by decide)).trans (W3_arg10 m ρ c)
theorem W5_arg11 : W5 m ρ c (Proc.devRef .tc main_arg11) = m ((c : Thread nD τ).loc main_arg11) :=
  (W5_keeps m ρ c main_arg11 (by decide) (by decide)).trans (W3_arg11 m ρ c)

/-- The first region's result array is the reference's first contraction. -/
theorem W5_xw_user : W5 m ρ c (Proc.devRef .tc main_v32) = Cert.ReferenceIdeal.Read.val_main_v0 (F := Ideal) (m ((c : Thread nD τ).loc main_arg0)) (m ((c : Thread nD τ).loc main_arg4)) := by
  rw [W5_of_ne m ρ c main_v32 (by decide)]
  refine (W4_arr m ρ c 2).trans ?_
  rw [prod3_final (V3 m ρ) lin3_apply c]
  show prod3 (W3 m ρ c (Proc.devRef .tc main_arg0)) (W3 m ρ c (Proc.devRef .tc main_arg4)) = _
  rw [W3_arg0, W3_arg4, prod3_eq_ref]

/-- The second region's result array is the reference's second contraction. -/
theorem W5_xw_movie : W5 m ρ c (Proc.devRef .tc main_v33) = Cert.ReferenceIdeal.Read.val_main_v50 (F := Ideal) (m ((c : Thread nD τ).loc main_arg1)) (m ((c : Thread nD τ).loc main_arg6)) := by
  refine (W5_arr m ρ c 2).trans ?_
  rw [prod18_final (V4 m ρ) lin18_apply c]
  show prod18 (W4 m ρ c (Proc.devRef .tc main_arg1)) (W4 m ρ c (Proc.devRef .tc main_arg6)) = _
  rw [W4_of_ne m ρ c main_arg1 (by decide), W4_of_ne m ρ c main_arg6 (by decide), W3_arg1, W3_arg6, prod18_eq_ref]

/-! ## The fourth stretch -/

set_option maxHeartbeats 1000000 in
/-- The aggregation of the first feature array, from any contents that hold the reference's stages at the buffers it reads. -/
theorem agg_user_stretch (Y : Valuation τ sig (Elt Ideal)) (x0 : (⟨S100000x3, .f32⟩ : BufTy).Contents (Elt Ideal)) (x2 : (⟨S2x1000000, .i32⟩ : BufTy).Contents (Elt Ideal)) (x3 : (⟨S1000000, .f32⟩ : BufTy).Contents (Elt Ideal)) (x4 : (⟨S3x64, .f32⟩ : BufTy).Contents (Elt Ideal)) (x5 : (⟨S64, .f32⟩ : BufTy).Contents (Elt Ideal))
    (h31 : Y (Proc.devRef .tc main_v31) = Cert.ReferenceIdeal.Read.val_main_v33 (F := Ideal) x2 x3) (h5 : Y (Proc.devRef .tc main_v5) = Cert.ReferenceIdeal.Read.val_main_v4 (F := Ideal) x2)
    (h6 : Y (Proc.devRef .tc main_v6) = Cert.ReferenceIdeal.Read.val_main_v8 (F := Ideal) x2) (h32 : Y (Proc.devRef .tc main_v32) = Cert.ReferenceIdeal.Read.val_main_v0 (F := Ideal) x0 x4)
    (hb : Y (Proc.devRef .tc main_arg5) = x5) :
    StableHlo.after (hostOps2 (F := Ideal)) Y (Proc.devRef .tc main_v62) = Cert.ReferenceIdeal.Read.val_main_v49 (F := Ideal) x0 x2 x3 x4 x5 := by
  dsimp only [hostOps2]
  after_results_simp
  rw [h31, h5, h6, h32, hb]
  rfl

set_option maxHeartbeats 1000000 in
/-- The aggregation of the second feature array, likewise. -/
theorem agg_movie_stretch (Y : Valuation τ sig (Elt Ideal)) (x1 : (⟨S100000x18, .f32⟩ : BufTy).Contents (Elt Ideal)) (x2 : (⟨S2x1000000, .i32⟩ : BufTy).Contents (Elt Ideal)) (x3 : (⟨S1000000, .f32⟩ : BufTy).Contents (Elt Ideal)) (x6 : (⟨S18x64, .f32⟩ : BufTy).Contents (Elt Ideal)) (x7 : (⟨S64, .f32⟩ : BufTy).Contents (Elt Ideal))
    (h31 : Y (Proc.devRef .tc main_v31) = Cert.ReferenceIdeal.Read.val_main_v83 (F := Ideal) x2 x3) (h5 : Y (Proc.devRef .tc main_v5) = Cert.ReferenceIdeal.Read.val_main_v54 (F := Ideal) x2)
    (h6 : Y (Proc.devRef .tc main_v6) = Cert.ReferenceIdeal.Read.val_main_v58 (F := Ideal) x2) (h33 : Y (Proc.devRef .tc main_v33) = Cert.ReferenceIdeal.Read.val_main_v50 (F := Ideal) x1 x6)
    (hb : Y (Proc.devRef .tc main_arg7) = x7) :
    StableHlo.after (hostOps2 (F := Ideal)) Y (Proc.devRef .tc main_v65) = Cert.ReferenceIdeal.Read.val_main_v99 (F := Ideal) x1 x2 x3 x6 x7 := by
  dsimp only [hostOps2]
  after_results_simp
  rw [h31, h5, h6, h33, hb]
  rfl

/-- Rows 0…63 of the first weight. -/
theorem w1a_stretch (Y : Valuation τ sig (Elt Ideal)) :
    StableHlo.after (hostOps2 (F := Ideal)) Y (Proc.devRef .tc main_v66)
      = extractStridedSlice S64x128 ![0, 0] (Y (Proc.devRef .tc main_arg8)) slices_S128x128_S64x128_0_0 := by
  dsimp only [hostOps2]
  after_results_simp
/-- Rows 64…127 of the first weight. -/
theorem w1b_stretch (Y : Valuation τ sig (Elt Ideal)) :
    StableHlo.after (hostOps2 (F := Ideal)) Y (Proc.devRef .tc main_v67)
      = extractStridedSlice S64x128 ![64, 0] (Y (Proc.devRef .tc main_arg8)) slices_S128x128_S64x128_64_0 := by
  dsimp only [hostOps2]
  after_results_simp
/-- The first bias as a row. -/
theorem b1_stretch (Y : Valuation τ sig (Elt Ideal)) :
    StableHlo.after (hostOps2 (F := Ideal)) Y (Proc.devRef .tc main_v75)
      = broadcastInDim S1x128 ![1] bcast_S128_S1x128_1 (Y (Proc.devRef .tc main_arg9)) := by
  dsimp only [hostOps2]
  after_results_simp
/-- The second weight written into column 0 of a zero array. -/
theorem w2_stretch (Y : Valuation τ sig (Elt Ideal)) :
    StableHlo.after (hostOps2 (F := Ideal)) Y (Proc.devRef .tc main_v70)
      = Host.scatter scatter_S128x128_S1_S128x1_01_n_1_0 (fun _ b => b)
          (broadcastInDim S128x128 ![] bcast_S_S128x128 (constant (F := Ideal) S_ .f32 0x00000000#32))
          (broadcastInDim S1 ![] bcast_S_S1 (constantI S_ 32 0#32)) (Y (Proc.devRef .tc main_arg10)) := by
  dsimp only [hostOps2]
  after_results_simp
/-- The second bias written into column 0 of a zero row. -/
theorem b2_stretch (Y : Valuation τ sig (Elt Ideal)) :
    StableHlo.after (hostOps2 (F := Ideal)) Y (Proc.devRef .tc main_v74)
      = Host.scatter scatter_S1x128_S1_S1x1_01_n_1_0 (fun _ b => b)
          (broadcastInDim S1x128 ![] bcast_S_S1x128 (constant (F := Ideal) S_ .f32 0x00000000#32))
          (broadcastInDim S1 ![] bcast_S_S1 (constantI S_ 32 0#32))
          (broadcastInDim S1x1 ![1] bcast_S1_S1x1_1 (Y (Proc.devRef .tc main_arg11))) := by
  dsimp only [hostOps2]
  after_results_simp

/-! ## The head's seven input arrays -/

theorem W6_user : W6 m ρ c (Proc.devRef .tc main_v62) = Cert.ReferenceIdeal.Read.val_main_v49 (F := Ideal) (m ((c : Thread nD τ).loc main_arg0)) (m ((c : Thread nD τ).loc main_arg2)) (m ((c : Thread nD τ).loc main_arg3)) (m ((c : Thread nD τ).loc main_arg4)) (m ((c : Thread nD τ).loc main_arg5)) :=
  agg_user_stretch (W5 m ρ c) _ _ _ _ _ (W5_norm m ρ c) (W5_row m ρ c) (W5_col m ρ c) (W5_xw_user m ρ c) (W5_arg5 m ρ c)
theorem W6_movie : W6 m ρ c (Proc.devRef .tc main_v65) = Cert.ReferenceIdeal.Read.val_main_v99 (F := Ideal) (m ((c : Thread nD τ).loc main_arg1)) (m ((c : Thread nD τ).loc main_arg2)) (m ((c : Thread nD τ).loc main_arg3)) (m ((c : Thread nD τ).loc main_arg6)) (m ((c : Thread nD τ).loc main_arg7)) :=
  agg_movie_stretch (W5 m ρ c) _ _ _ _ _ ((W5_norm m ρ c).trans (norm_again _ _).symm) ((W5_row m ρ c).trans (row_again _).symm)
    ((W5_col m ρ c).trans (col_again _).symm) (W5_xw_movie m ρ c) (W5_arg7 m ρ c)
theorem W6_w1a : W6 m ρ c (Proc.devRef .tc main_v66)
    = extractStridedSlice S64x128 ![0, 0] (m ((c : Thread nD τ).loc main_arg8)) slices_S128x128_S64x128_0_0 :=
  (w1a_stretch (W5 m ρ c)).trans (by rw [W5_arg8])
theorem W6_w1b : W6 m ρ c (Proc.devRef .tc main_v67)
    = extractStridedSlice S64x128 ![64, 0] (m ((c : Thread nD τ).loc main_arg8)) slices_S128x128_S64x128_64_0 :=
  (w1b_stretch (W5 m ρ c)).trans (by rw [W5_arg8])
theorem W6_b1 : W6 m ρ c (Proc.devRef .tc main_v75) = broadcastInDim S1x128 ![1] bcast_S128_S1x128_1 (m ((c : Thread nD τ).loc main_arg9)) :=
  (b1_stretch (W5 m ρ c)).trans (by rw [W5_arg9])
theorem W6_w2 : W6 m ρ c (Proc.devRef .tc main_v70)
    = Host.scatter scatter_S128x128_S1_S128x1_01_n_1_0 (fun _ b => b)
        (broadcastInDim S128x128 ![] bcast_S_S128x128 (constant (F := Ideal) S_ .f32 0x00000000#32))
        (broadcastInDim S1 ![] bcast_S_S1 (constantI S_ 32 0#32)) (m ((c : Thread nD τ).loc main_arg10)) :=
  (w2_stretch (W5 m ρ c)).trans (by rw [W5_arg10])
theorem W6_b2 : W6 m ρ c (Proc.devRef .tc main_v74)
    = Host.scatter scatter_S1x128_S1_S1x1_01_n_1_0 (fun _ b => b)
        (broadcastInDim S1x128 ![] bcast_S_S1x128 (constant (F := Ideal) S_ .f32 0x00000000#32))
        (broadcastInDim S1 ![] bcast_S_S1 (constantI S_ 32 0#32))
        (broadcastInDim S1x1 ![1] bcast_S1_S1x1_1 (m ((c : Thread nD τ).loc main_arg11))) :=
  (b2_stretch (W5 m ρ c)).trans (by rw [W5_arg11])

end Cert.Bridge

end
-- ==== Proof.Blocks2.lean ====
/-
  The head as ONE function of its seven arrays.

  The grid has twenty points; point `t` takes rows `5000 t … 5000 t + 4999` of the two aggregated feature arrays, the
  whole of the two halves of the first weight, the first bias row, the padded second weight and the padded second bias
  row, and writes rows `5000 t …` of the result. Entry `(r, q)` of what it writes depends on row `r` of the two feature
  arrays only: hidden unit `k` is `∑ j, u (r, j) · W1a (j, k) + ∑ j, v (r, j) · W1b (j, k) + b1 (0, k)` cut off below at
  zero, and the entry is `∑ k, hidden k · W2 (k, q) + b2 (0, q)`. So every block is the restriction of one whole-array
  function, and the twenty blocks tile the hundred thousand rows.
-/
import proofs.«129203_j89524298318419_1_alg».proof.Proof.Gen.KernelIdeal.Frame
import Idealize.ShloMosaic.Lib.Pipeline.Value
import Idealize.ShloMosaic.Lib.ValueIdx

set_option maxRecDepth 16384

noncomputable section

namespace Cert.Bridge

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

/-- A block's zero offsets, however spelt. -/
theorem zero_offsets'' : (![0, 0] : Fin 2 → Nat) = fun _ => 0 := funext fun a => by fin_cases a <;> rfl

/-- The head, entry by entry, over its whole arrays: two matrix products added, the first bias row, the cut-off at zero,
    the third matrix product, the second bias row. -/
def headOf (u v : S100000x64.Idx → Elt Ideal .f32) (w1a w1b : S64x128.Idx → Elt Ideal .f32) (b1 : S1x128.Idx → Elt Ideal .f32)
    (w2 : S128x128.Idx → Elt Ideal .f32) (b2 : S1x128.Idx → Elt Ideal .f32) : S100000x128.Idx → Elt Ideal .f32 :=
  fun i => (∑ k : Fin 128, max ((∑ j : Fin 64, u (ix2 (i 0) j) * w1a (ix2 j k)) + (∑ j : Fin 64, v (ix2 (i 0) j) * w1b (ix2 j k))
      + b1 (ix2 0 k)) 0 * w2 (ix2 k (i 1))) + b2 (ix2 0 (i 1))

/-- The printed index maps over the twenty points: the two feature arrays and the result move down the rows with the
    point, the five parameter arrays stay. -/
theorem index_maps2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

set_option maxHeartbeats 1600000 in
/-- What point `t` writes back is block `t` of the whole-array head. -/
theorem block_written2
    (hpay : ∀ (u mv : Vec Ideal S5000x64 .f32) (w1a w1b : Vec Ideal S64x128 .f32) (b1 : Vec Ideal S1x128 .f32)
      (w2 : Vec Ideal S128x128 .f32) (b2 : Vec Ideal S1x128 .f32) (p : Fin 5000) (q : Fin 128),
      k2_pay1 (F := Ideal) u mv w1a w1b b1 w2 b2 (ix2 p q)
        = (∑ k : Fin 128, max ((∑ j : Fin 64, u (ix2 p j) * w1a (ix2 j k)) + (∑ j : Fin 64, mv (ix2 p j) * w1b (ix2 j k)) + b1 (ix2 0 k)) 0 * w2 (ix2 k q)) + b2 (ix2 0 q))
    (c : Dev nD) (t : Fin cfg2.N) :
    (dat2 (F := Ideal) V c).flushed 7 t
      = ((cfg2.win 7).blk t).view.read (Elt Ideal) (headOf (V c main_v62) (V c main_v65) (V c main_v66) (V c main_v67) (V c main_v75) (V c main_v70) (V c main_v74)) := by
  show (cfg2.win 7).cut (grid2.coords t) ((dat2 V c).after 7 t) = _
  rw [after2_7]
  unfold out2_7
  rw [View.canon_unit_zero zero_offsets'']
  simp only [View.ld_unit_zero (S := S5000x64) zero_offsets'', View.ld_unit_zero (S := S64x128) zero_offsets'',
    View.ld_unit_zero (S := S1x128) zero_offsets'', View.ld_unit_zero (S := S128x128) zero_offsets'']
  obtain ⟨a0, b0, a1, b1, a2, b2, a3, b3, a4, b4, a5, b5, a6, b6, a7, b7⟩ := index_maps2 t
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (iblk2 V c 3 t) (iblk2 V c 4 t) (iblk2 V c 5 t) (iblk2 V c 6 t) (ix2 p q)
    = headOf (V c main_v62) (V c main_v65) (V c main_v66) (V c main_v67) (V c main_v75) (V c main_v70) (V c main_v74) (((cfg2.win 7).blk t).view.emb (ix2 p q))
  refine (hpay _ _ _ _ _ _ _ p q).trans ?_
  unfold headOf
  have hu : ∀ j : Fin 64, ((cfg2.win 0).blk t).view.emb (ix2 p j) = ix2 ((((cfg2.win 7).blk t).view.emb (ix2 p q)) 0) j := fun j => by
    funext a; apply Fin.ext
    match a with
    | ⟨0, _⟩ => show win2_0.index t (0 : Fin 2) * 5000 + 1 * p.val = win2_7.index t (0 : Fin 2) * 5000 + 1 * p.val; omega
    | ⟨1, _⟩ => show win2_0.index t (1 : Fin 2) * 64 + 1 * j.val = j.val; omega
  have hv : ∀ j : Fin 64, ((cfg2.win 1).blk t).view.emb (ix2 p j) = ix2 ((((cfg2.win 7).blk t).view.emb (ix2 p q)) 0) j := fun j => by
    funext a; apply Fin.ext
    match a with
    | ⟨0, _⟩ => show win2_1.index t (0 : Fin 2) * 5000 + 1 * p.val = win2_7.index t (0 : Fin 2) * 5000 + 1 * p.val; omega
    | ⟨1, _⟩ => show win2_1.index t (1 : Fin 2) * 64 + 1 * j.val = j.val; omega
  have hw1a : ∀ (j : Fin 64) (k : Fin 128), ((cfg2.win 2).blk t).view.emb (ix2 j k) = ix2 j k := fun j k => by
    funext a; apply Fin.ext
    match a with
    | ⟨0, _⟩ => show win2_2.index t (0 : Fin 2) * 64 + 1 * j.val = j.val; omega
    | ⟨1, _⟩ => show win2_2.index t (1 : Fin 2) * 128 + 1 * k.val = k.val; omega
  have hw1b : ∀ (j : Fin 64) (k : Fin 128), ((cfg2.win 3).blk t).view.emb (ix2 j k) = ix2 j k := fun j k => by
    funext a; apply Fin.ext
    match a with
    | ⟨0, _⟩ => show win2_3.index t (0 : Fin 2) * 64 + 1 * j.val = j.val; omega
    | ⟨1, _⟩ => show win2_3.index t (1 : Fin 2) * 128 + 1 * k.val = k.val; omega
  have hb1 : ∀ k : Fin 128, ((cfg2.win 4).blk t).view.emb (ix2 (0 : Fin 1) k) = ix2 (0 : Fin 1) k := fun k => by
    funext a; apply Fin.ext
    match a with
    | ⟨0, _⟩ => show win2_4.index t (0 : Fin 2) * 1 + 1 * 0 = 0; omega
    | ⟨1, _⟩ => show win2_4.index t (1 : Fin 2) * 128 + 1 * k.val = k.val; omega
  have hw2 : ∀ k : Fin 128, ((cfg2.win 5).blk t).view.emb (ix2 k q) = ix2 k ((((cfg2.win 7).blk t).view.emb (ix2 p q)) 1) := fun k => by
    funext a; apply Fin.ext
    match a with
    | ⟨0, _⟩ => show win2_5.index t (0 : Fin 2) * 128 + 1 * k.val = k.val; omega
    | ⟨1, _⟩ => show win2_5.index t (1 : Fin 2) * 128 + 1 * q.val = win2_7.index t (1 : Fin 2) * 128 + 1 * q.val; omega
  have hb2 : ((cfg2.win 6).blk t).view.emb (ix2 (0 : Fin 1) q) = ix2 (0 : Fin 1) ((((cfg2.win 7).blk t).view.emb (ix2 p q)) 1) := by
    funext a; apply Fin.ext
    match a with
    | ⟨0, _⟩ => show win2_6.index t (0 : Fin 2) * 1 + 1 * 0 = 0; omega
    | ⟨1, _⟩ => show win2_6.index t (1 : Fin 2) * 128 + 1 * q.val = win2_7.index t (1 : Fin 2) * 128 + 1 * q.val; omega
  refine congrArg₂ (fun a b : Elt Ideal .f32 => a + b) (Finset.sum_congr rfl fun k _ => ?_)
    (congrArg (V c main_v74 : S1x128.Idx → Elt Ideal .f32) hb2)
  refine congrArg₂ (fun a b : Elt Ideal .f32 => a * b) ?_ (congrArg (V c main_v70 : S128x128.Idx → Elt Ideal .f32) (hw2 k))
  refine congrArg (fun a : Elt Ideal .f32 => max a 0) ?_
  refine congrArg₂ (fun a b : Elt Ideal .f32 => a + b)
    (congrArg₂ (fun a b : Elt Ideal .f32 => a + b) (Finset.sum_congr rfl fun j _ => ?_) (Finset.sum_congr rfl fun j _ => ?_))
    (congrArg (V c main_v75 : S1x128.Idx → Elt Ideal .f32) (hb1 k))
  · exact congrArg₂ (fun a b : Elt Ideal .f32 => a * b)
      (congrArg (V c main_v62 : S100000x64.Idx → Elt Ideal .f32) (hu j))
      (congrArg (V c main_v66 : S64x128.Idx → Elt Ideal .f32) (hw1a j k))
  · exact congrArg₂ (fun a b : Elt Ideal .f32 => a * b)
      (congrArg (V c main_v65 : S100000x64.Idx → Elt Ideal .f32) (hv j))
      (congrArg (V c main_v67 : S64x128.Idx → Elt Ideal .f32) (hw1b j k))

/-- An index of the result array is in point `t`'s block iff each coordinate is in the block's range on its axis. -/
theorem mem_block2 (t : Fin cfg2.N) (i : S100000x128.Idx) :
    i ∈ ((cfg2.win 7).blk t).view.set ↔ ∀ a : Fin 2, win2_7.index t a * S5000x128.size a ≤ (i a).val
      ∧ (i a).val < win2_7.index t a * S5000x128.size a + S5000x128.size a := by
  show i ∈ ((View.whole main_v76).slice (win2_7.rect t)).set ↔ _
  rw [View.set_slice_whole, Rect.mem_set_unit]
  exact Iff.rfl

/-- Row `r` of the result is in the block of point `r / 5000`: the twenty blocks tile the array. -/
theorem covered2 (i : S100000x128.Idx) :
    ∃ t : Fin cfg2.N, (cfg2.win 7).flush t = true ∧ i ∈ ((cfg2.win 7).blk t).view.set := by
  have hi0 : (i 0).val < 100000 := (i 0).isLt
  have hi1 : (i 1).val < 128 := (i 1).isLt
  have hN : grid2.N = 20 := N_2
  have ht : (i 0).val / 5000 < grid2.N := by omega
  refine ⟨⟨(i 0).val / 5000, ht⟩, flush2_7 _, ?_⟩
  rw [mem_block2]
  obtain ⟨a0, b0, a1, b1, a2, b2, a3, b3, a4, b4, a5, b5, a6, b6, a7, b7⟩ := index_maps2 ⟨(i 0).val / 5000, ht⟩
  intro a
  match a with
  | ⟨0, _⟩ =>
    show win2_7.index ⟨(i 0).val / 5000, ht⟩ (0 : Fin 2) * 5000 ≤ (i 0).val
      ∧ (i 0).val < win2_7.index ⟨(i 0).val / 5000, ht⟩ (0 : Fin 2) * 5000 + 5000
    rw [a7]; show (i 0).val / 5000 * 5000 ≤ (i 0).val ∧ (i 0).val < (i 0).val / 5000 * 5000 + 5000; omega
  | ⟨1, _⟩ =>
    show win2_7.index ⟨(i 0).val / 5000, ht⟩ (1 : Fin 2) * 128 ≤ (i 1).val
      ∧ (i 1).val < win2_7.index ⟨(i 0).val / 5000, ht⟩ (1 : Fin 2) * 128 + 128
    rw [b7]; omega

/-- The head's result array after its region: the whole-array head of the arrays as the region finds them. -/
theorem head_final
    (hpay : ∀ (u mv : Vec Ideal S5000x64 .f32) (w1a w1b : Vec Ideal S64x128 .f32) (b1 : Vec Ideal S1x128 .f32)
      (w2 : Vec Ideal S128x128 .f32) (b2 : Vec Ideal S1x128 .f32) (p : Fin 5000) (q : Fin 128),
      k2_pay1 (F := Ideal) u mv w1a w1b b1 w2 b2 (ix2 p q)
        = (∑ k : Fin 128, max ((∑ j : Fin 64, u (ix2 p j) * w1a (ix2 j k)) + (∑ j : Fin 64, mv (ix2 p j) * w1b (ix2 j k)) + b1 (ix2 0 k)) 0 * w2 (ix2 k q)) + b2 (ix2 0 q))
    (c : Dev nD) :
    (dat2 (F := Ideal) V c).arrAt 7 cfg2.N = headOf (V c main_v62) (V c main_v65) (V c main_v66) (V c main_v67) (V c main_v75) (V c main_v70) (V c main_v74) :=
  (dat2 V c).arrAt_eq_of_cover 7 _ (fun t _ => block_written2 V hpay c t) covered2

end Cert.Bridge

end
-- ==== Proof.LibScatterRead.lean ====
/-
  Reading a scatter that writes its updates (body: return the update) at one position.

  Such a scatter is the left fold, over the updates in row-major order, of point writes: update `j` overwrites the operand
  at its result position when that lies inside the operand and is dropped otherwise. Read at a position where exactly one
  update lands, the result is that update's value, whatever the operand held and whatever the other updates do. The
  fold lemmas are stated for any list of point writes; the scatter lemma for any operand, index and update shapes.
-/
import Idealize.ShloMosaic.Lib.ValueIdx

noncomputable section

namespace Cert.Lib.ScatterRead

open Idealize.ShloMosaic

/-- A left fold of point writes read at a position no step writes: if every step of the fold either
    leaves the array alone (g n = none) or overwrites it at one position g n = some i, and no step
    of the list writes at i0, the fold's result at i0 is the start array's value there. -/
theorem foldl_write_miss {ι κ α : Type} (g : κ → Option ι) (v : κ → α) [DecidableEq ι]
    (step : (ι → α) → κ → ι → α)
    (hs : ∀ r n i, g n = some i → step r n = fun i' => if i' = i then v n else r i')
    (hn : ∀ r n, g n = none → step r n = r) (i0 : ι) :
    ∀ (l : List κ), (∀ n ∈ l, g n ≠ some i0) → ∀ r, l.foldl step r i0 = r i0 := by
  intro l
  induction l with
  | nil => intro _ r; rfl
  | cons a l ih =>
    intro hl r
    rw [List.foldl_cons, ih (fun n hn' => hl n (List.mem_cons_of_mem a hn'))]
    cases hga : g a with
    | none => rw [hn r a hga]
    | some i =>
      rw [hs r a i hga]
      have hne : i0 ≠ i := fun h => hl a List.mem_cons_self (by rw [hga, h])
      exact if_neg hne

/-- A left fold of point writes read at a position exactly one step writes: if the steps are as
    above, the list has no repetition, step n0 of the list writes at i0 and no other step of the
    list does, the fold's result at i0 is the value step n0 writes. -/
theorem foldl_write_hit {ι κ α : Type} (g : κ → Option ι) (v : κ → α) [DecidableEq ι]
    (step : (ι → α) → κ → ι → α)
    (hs : ∀ r n i, g n = some i → step r n = fun i' => if i' = i then v n else r i')
    (hn : ∀ r n, g n = none → step r n = r) (n0 : κ) (i0 : ι) (h0 : g n0 = some i0) :
    ∀ (l : List κ), l.Nodup → n0 ∈ l → (∀ n ∈ l, g n = some i0 → n = n0) →
      ∀ r, l.foldl step r i0 = v n0 := by
  intro l
  induction l with
  | nil => intro _ hm; exact absurd hm List.not_mem_nil
  | cons a l ih =>
    intro hnd hm huniq r
    rw [List.foldl_cons]
    have hnd' := List.nodup_cons.1 hnd
    by_cases han : n0 = a
    · subst han
      rw [foldl_write_miss g v step hs hn i0 l
        (fun n hnl hgn => hnd'.1 (huniq n (List.mem_cons_of_mem _ hnl) hgn ▸ hnl)),
        hs r n0 i0 h0]
      exact if_pos rfl
    · have hml : n0 ∈ l := by
        rcases List.mem_cons.1 hm with h | h
        · exact absurd h han
        · exact h
      exact ih hnd'.2 hml (fun n hnl => huniq n (List.mem_cons_of_mem _ hnl)) _

/-- A scatter whose body returns the update, read at an operand position that exactly one update
    lands at: the result there is that update's value, whatever the operand held. (The scatter is the
    left fold, over the updates in row-major order, of the point writes at their result positions;
    an update whose result position falls outside the operand is dropped.) -/
theorem scatter_set_read {α : Type} {s si u : Shape} {w : Nat} (d : ScatterDims s si u)
    (x : s.Idx → α) (idx : IVec si w) (upd : u.Idx → α) (j0 : u.Idx) (i0 : s.Idx)
    (h0 : d.resultIdx? j0 idx = some i0) (huniq : ∀ j, d.resultIdx? j idx = some i0 → j = j0) :
    Host.scatter d (fun _ b => b) x idx upd i0 = upd j0 := by
  unfold Host.scatter
  refine Eq.trans (foldl_write_hit
    (g := fun n : Fin u.numel => d.resultIdx? (u.rowMajor.symm n) idx)
    (v := fun n : Fin u.numel => upd (u.rowMajor.symm n)) _ ?_ ?_ (u.rowMajor j0) i0 ?_
    (List.finRange u.numel) (List.nodup_finRange _) (List.mem_finRange _) ?_ x) ?_
  · intro r n i h
    simp only [h]
  · intro r n h
    simp only [h]
  · simp only [Equiv.symm_apply_apply]; exact h0
  · intro n _ hn
    rw [← huniq _ hn, Equiv.apply_symm_apply]
  · simp only [Equiv.symm_apply_apply]

end Cert.Lib.ScatterRead

end
-- ==== Proof.PadRead.lean ====
import proofs.«129203_j89524298318419_1_alg».proof.KernelIdeal
import Idealize.ShloMosaic.Lib.ValueIdx
import proofs.«129203_j89524298318419_1_alg».proof.Proof.LibScatterRead

noncomputable section

namespace Cert.Bridge

open Cert.KernelIdeal Idealize.ShloMosaic Idealize.ShloMosaic.ValueIdx Cert.Lib.ScatterRead

variable [Facts₀]

/-- With every index word zero, the window of every update starts at 0 on both operand axes. -/
theorem padW2_start {w : Nat} (j : S128x1.Idx) (idx : IVec S1 w) (hidx : ∀ j, idx j = 0#w) (a : Fin S128x128.rank) :
    scatter_S128x128_S1_S128x1_01_n_1_0.start j idx a = 0 := by
  unfold ScatterDims.start
  split
  · rw [hidx]; exact BitVec.toInt_zero
  · rfl

/-- The window coordinate on each operand axis is the update index's coordinate on the same axis
    (the window axes are both update axes, in order, and no operand axis is inserted). -/
theorem padW2_window0 (j : S128x1.Idx) : scatter_S128x128_S1_S128x1_01_n_1_0.window j 0 = (j 0).val := rfl
/-- The same on the column axis. -/
theorem padW2_window1 (j : S128x1.Idx) : scatter_S128x128_S1_S128x1_01_n_1_0.window j 1 = (j 1).val := rfl

/-- With every index word zero, update (r, 0) of the 128 x 1 update lands at (r, 0) of the 128 x 128 operand. -/
theorem padW2_resultIdx {w : Nat} (j : S128x1.Idx) (idx : IVec S1 w) (hidx : ∀ j, idx j = 0#w) :
    scatter_S128x128_S1_S128x1_01_n_1_0.resultIdx? j idx = some (ix2 (n0 := 128) (n1 := 128) (j 0) 0) := by
  have hs := padW2_start j idx hidx
  have hj0 : (j 0).val < 128 := idx2_lt0 j
  have hj1 : (j 1).val = 0 := by have := idx2_lt1 j; omega
  have hb : ∀ a, 0 ≤ scatter_S128x128_S1_S128x1_01_n_1_0.start j idx a + scatter_S128x128_S1_S128x1_01_n_1_0.window j a ∧
      scatter_S128x128_S1_S128x1_01_n_1_0.start j idx a + scatter_S128x128_S1_S128x1_01_n_1_0.window j a < S128x128.size a := by
    intro a
    rw [hs a]
    match a with
    | ⟨0, _⟩ => rw [show (⟨0, _⟩ : Fin S128x128.rank) = 0 from rfl, padW2_window0]; show _ ∧ _ < ((128 : Nat) : Int); omega
    | ⟨1, _⟩ => rw [show (⟨1, _⟩ : Fin S128x128.rank) = 1 from rfl, padW2_window1]; show _ ∧ _ < ((128 : Nat) : Int); omega
  unfold ScatterDims.resultIdx?
  rw [dif_pos hb]
  congr 1
  funext a
  apply Fin.ext
  show (scatter_S128x128_S1_S128x1_01_n_1_0.start j idx a + scatter_S128x128_S1_S128x1_01_n_1_0.window j a).toNat = _
  rw [hs a]
  match a with
  | ⟨0, _⟩ => rw [show (⟨0, _⟩ : Fin S128x128.rank) = 0 from rfl, padW2_window0]; show _ = (j 0).val; omega
  | ⟨1, _⟩ => rw [show (⟨1, _⟩ : Fin S128x128.rank) = 1 from rfl, padW2_window1]; show _ = 0; omega

/-- Column 0 of the zero-padded weight. The scatter writes the 128 x 1 update w over the 128 x 128
    operand x as one window whose start is the single scatter index, here 0 on the column axis; the
    window is the whole update, the body returns the update, and the 128 updates (r, 0) land at the
    pairwise distinct operand positions (r, 0), all inside the operand. So whatever x holds, the
    result at (k, 0) is the one value written there, w (k, 0). -/
theorem padW2_col0 {α : Type} (x : S128x128.Idx → α) (idx : IVec S1 32) (hidx : ∀ j, idx j = 0#32)
    (w : S128x1.Idx → α) (k : Fin 128) :
    Host.scatter scatter_S128x128_S1_S128x1_01_n_1_0 (fun _ b => b) x idx w (ix2 k 0) = w (ix2 k 0) := by
  refine scatter_set_read _ x idx w (ix2 k 0) (ix2 k 0) (padW2_resultIdx _ idx hidx) ?_
  intro j hj
  rw [padW2_resultIdx j idx hidx] at hj
  have h0 : j 0 = k := congrFun (Option.some.inj hj) 0
  funext a
  match a with
  | ⟨0, _⟩ => exact h0
  | ⟨1, _⟩ => exact Subsingleton.elim (α := Fin 1) _ _

/-- With every index word zero, the window of the one update starts at 0 on both operand axes. -/
theorem padB2_start {w : Nat} (j : S1x1.Idx) (idx : IVec S1 w) (hidx : ∀ j, idx j = 0#w) (a : Fin S1x128.rank) :
    scatter_S1x128_S1_S1x1_01_n_1_0.start j idx a = 0 := by
  unfold ScatterDims.start
  split
  · rw [hidx]; exact BitVec.toInt_zero
  · rfl

/-- The window coordinate on each operand axis is the update index's coordinate on the same axis. -/
theorem padB2_window0 (j : S1x1.Idx) : scatter_S1x128_S1_S1x1_01_n_1_0.window j 0 = (j 0).val := rfl
/-- The same on the column axis. -/
theorem padB2_window1 (j : S1x1.Idx) : scatter_S1x128_S1_S1x1_01_n_1_0.window j 1 = (j 1).val := rfl

/-- With every index word zero, the one element of the 1 x 1 update lands at (0, 0) of the 1 x 128 operand. -/
theorem padB2_resultIdx {w : Nat} (j : S1x1.Idx) (idx : IVec S1 w) (hidx : ∀ j, idx j = 0#w) :
    scatter_S1x128_S1_S1x1_01_n_1_0.resultIdx? j idx = some (ix2 (n0 := 1) (n1 := 128) 0 0) := by
  have hs := padB2_start j idx hidx
  have hj0 : (j 0).val = 0 := by have := idx2_lt0 j; omega
  have hj1 : (j 1).val = 0 := by have := idx2_lt1 j; omega
  have hb : ∀ a, 0 ≤ scatter_S1x128_S1_S1x1_01_n_1_0.start j idx a + scatter_S1x128_S1_S1x1_01_n_1_0.window j a ∧
      scatter_S1x128_S1_S1x1_01_n_1_0.start j idx a + scatter_S1x128_S1_S1x1_01_n_1_0.window j a < S1x128.size a := by
    intro a
    rw [hs a]
    match a with
    | ⟨0, _⟩ => rw [show (⟨0, _⟩ : Fin S1x128.rank) = 0 from rfl, padB2_window0]; show _ ∧ _ < ((1 : Nat) : Int); omega
    | ⟨1, _⟩ => rw [show (⟨1, _⟩ : Fin S1x128.rank) = 1 from rfl, padB2_window1]; show _ ∧ _ < ((128 : Nat) : Int); omega
  unfold ScatterDims.resultIdx?
  rw [dif_pos hb]
  congr 1
  funext a
  apply Fin.ext
  show (scatter_S1x128_S1_S1x1_01_n_1_0.start j idx a + scatter_S1x128_S1_S1x1_01_n_1_0.window j a).toNat = _
  rw [hs a]
  match a with
  | ⟨0, _⟩ => rw [show (⟨0, _⟩ : Fin S1x128.rank) = 0 from rfl, padB2_window0]; show _ = 0; omega
  | ⟨1, _⟩ => rw [show (⟨1, _⟩ : Fin S1x128.rank) = 1 from rfl, padB2_window1]; show _ = 0; omega

/-- Entry (0, 0) of the zero-padded bias. The scatter writes the 1 x 1 update u over the 1 x 128
    operand x as one window starting at the single scatter index, here 0 on the column axis; the
    body returns the update, and the update's one element lands at (0, 0), inside the operand. So
    whatever x holds, the result at (0, 0) is u (0, 0). -/
theorem padB2_00 {α : Type} (x : S1x128.Idx → α) (idx : IVec S1 32) (hidx : ∀ j, idx j = 0#32)
    (u : S1x1.Idx → α) :
    Host.scatter scatter_S1x128_S1_S1x1_01_n_1_0 (fun _ b => b) x idx u (ix2 0 0) = u (ix2 0 0) := by
  refine scatter_set_read _ x idx u (ix2 0 0) (ix2 0 0) (padB2_resultIdx _ idx hidx) ?_
  intro j _
  funext a
  match a with
  | ⟨0, _⟩ => exact Subsingleton.elim (α := Fin 1) _ _
  | ⟨1, _⟩ => exact Subsingleton.elim (α := Fin 1) _ _

end Cert.Bridge
-- ==== Proof.HeadValue.lean ====
/-
  The kernel's result, entry by entry.

  The last operation keeps column 0 of the head's result array; that array is the whole-array head of the seven arrays
  the head's region finds. Read at row `r`: hidden unit `k` is the sum over the first aggregate's 64 columns against rows
  0…63 of the first weight, plus the sum over the second aggregate's 64 columns against rows 64…127, plus the first
  bias at `k`, cut off below at zero; the entry is the sum over the hidden units of that times the second weight at
  `(k, 0)` (column 0 of the padded weight is the weight itself), plus the second bias (entry `(0, 0)` of the padded
  bias row).
-/
import proofs.«129203_j89524298318419_1_alg».proof.Proof.HostB
import proofs.«129203_j89524298318419_1_alg».proof.Proof.Blocks2
import proofs.«129203_j89524298318419_1_alg».proof.Proof.PadRead
import Idealize.ShloMosaic.Lib.ValueLayout
import Idealize.ShloMosaic.Lib.Pipeline.Value

set_option maxRecDepth 16384

noncomputable section

namespace Cert.Bridge

open Cert.KernelIdeal Cert.KernelIdeal.Gen
open Idealize.ShloMosaic Idealize.ShloMosaic.TcCoe Idealize.ShloMosaic.StableHlo Idealize.ShloMosaic.ValueIdx
open Idealize.SL.Sem
open Cert.ReferenceIdeal.Read (val_main_v0 val_main_v4 val_main_v8 val_main_v33 val_main_v49 val_main_v50 val_main_v99)

variable (m : (ℓ : Loc nD τ sig) → Buf (Elt Ideal) ℓ) (ρ : Dev nD → PrngReg) (c : Dev nD)

/-- The head's result array after its region. -/
theorem W7_out : W7 m ρ c (Proc.devRef .tc main_v76) = headOf (W6 m ρ c (Proc.devRef .tc main_v62)) (W6 m ρ c (Proc.devRef .tc main_v65)) (W6 m ρ c (Proc.devRef .tc main_v66)) (W6 m ρ c (Proc.devRef .tc main_v67)) (W6 m ρ c (Proc.devRef .tc main_v75)) (W6 m ρ c (Proc.devRef .tc main_v70)) (W6 m ρ c (Proc.devRef .tc main_v74)) :=
  (W7_arr m ρ c 7).trans (head_final (V6 m ρ) mlp_apply c)

/-- The result is column 0 of it. -/
theorem W8_out : W8 m ρ c (Proc.devRef .tc main_v77)
    = extractStridedSlice S100000x1 ![0, 0] (W7 m ρ c (Proc.devRef .tc main_v76)) slices_S100000x128_S100000x1_0_0 := by
  show StableHlo.after hostOps3 (W7 m ρ c) (Proc.devRef .tc main_v77) = _
  dsimp only [hostOps3]
  after_results_simp

/-- The whole-array head at row `r`, column `q`. -/
theorem headOf_at (u v : S100000x64.Idx → Elt Ideal .f32) (w1a w1b : S64x128.Idx → Elt Ideal .f32) (b1 : S1x128.Idx → Elt Ideal .f32)
    (w2 : S128x128.Idx → Elt Ideal .f32) (b2 : S1x128.Idx → Elt Ideal .f32) (r : Fin 100000) (q : Fin 128) :
    headOf u v w1a w1b b1 w2 b2 (ix2 r q)
      = (∑ k : Fin 128, max ((∑ j : Fin 64, u (ix2 r j) * w1a (ix2 j k)) + (∑ j : Fin 64, v (ix2 r j) * w1b (ix2 j k))
          + b1 (ix2 0 k)) 0 * w2 (ix2 k q)) + b2 (ix2 0 q) := rfl

/-- A vector laid out as a one-row matrix, read in that row. -/
theorem row_of_vec128 (x : S128.Idx → Elt Ideal .f32) (k : Fin 128) :
    broadcastInDim S1x128 ![1] bcast_S128_S1x128_1 x (ix2 (0 : Fin 1) k) = x (ix1 k) :=
  broadcastInDim_apply _ bcast_S128_S1x128_1 x (ix2 (0 : Fin 1) k) (ix1 k) (fun a => match a with
    | ⟨0, _⟩ => by show k.val = if (128 : Nat) = 1 then 0 else k.val; rw [if_neg (by decide)])

/-- A one-entry vector laid out as a one-entry matrix. -/
theorem row_of_vec1 (x : S1.Idx → Elt Ideal .f32) :
    broadcastInDim S1x1 ![1] bcast_S1_S1x1_1 x (ix2 (0 : Fin 1) (0 : Fin 1)) = x (ix1 0) :=
  broadcastInDim_apply _ bcast_S1_S1x1_1 x (ix2 (0 : Fin 1) (0 : Fin 1)) (ix1 0) (fun a => match a with
    | ⟨0, _⟩ => by show (0 : Nat) = if (1 : Nat) = 1 then 0 else 0; rw [if_pos rfl])

set_option maxHeartbeats 1000000 in
/-- The kernel's result at row `r`. -/
theorem kernel_at (r : Fin 100000) :
    (W8 m ρ c (Proc.devRef .tc main_v77) : S100000x1.Idx → Elt Ideal .f32) (ix2 r 0)
      = (∑ k : Fin 128, max ((∑ j : Fin 64, Cert.ReferenceIdeal.Read.val_main_v49 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (ix2 r j) * (m ((c : Thread nD τ).loc main_arg8)) (ix2 (⟨j.val, by omega⟩ : Fin 128) k))
              + (∑ j : Fin 64, Cert.ReferenceIdeal.Read.val_main_v99 (F := Ideal) (m ((c : Thread nD τ).loc main_arg1)) (m ((c : Thread nD τ).loc main_arg2)) (m ((c : Thread nD τ).loc main_arg3)) (m ((c : Thread nD τ).loc main_arg6)) (m ((c : Thread nD τ).loc main_arg7)) (ix2 r j) * (m ((c : Thread nD τ).loc main_arg8)) (ix2 (⟨64 + j.val, by omega⟩ : Fin 128) k))
              + (m ((c : Thread nD τ).loc main_arg9)) (ix1 k)) 0 * (m ((c : Thread nD τ).loc main_arg10)) (ix2 k 0)) + (m ((c : Thread nD τ).loc main_arg11)) (ix1 0) := by
  rw [W8_out]
  refine (slice2_axis1_apply 0 (W7 m ρ c (Proc.devRef .tc main_v76) : S100000x128.Idx → Elt Ideal .f32)
    slices_S100000x128_S100000x1_0_0 r (0 : Fin 1) (0 : Fin 128) rfl).trans ?_
  rw [W7_out, headOf_at, W6_user, W6_movie, W6_w1a, W6_w1b, W6_b1, W6_w2, W6_b2]
  have hidx : ∀ j, (broadcastInDim S1 ![] bcast_S_S1 (constantI S_ 32 0#32) : IVec S1 32) j = 0#32 := fun _ => rfl
  refine congrArg₂ (fun a b : Elt Ideal .f32 => a + b) (Finset.sum_congr rfl fun k _ => ?_)
    ((padB2_00 _ _ hidx _).trans (row_of_vec1 _))
  refine congrArg₂ (fun a b : Elt Ideal .f32 => a * b) ?_ (padW2_col0 _ _ hidx _ k)
  refine congrArg (fun a : Elt Ideal .f32 => max a 0) ?_
  refine congrArg₂ (fun a b : Elt Ideal .f32 => a + b)
    (congrArg₂ (fun a b : Elt Ideal .f32 => a + b) (Finset.sum_congr rfl fun j _ => ?_) (Finset.sum_congr rfl fun j _ => ?_))
    (row_of_vec128 _ k)
  · exact congrArg₂ (fun a b : Elt Ideal .f32 => a * b) rfl
      (slice2_axis0_apply 0 ((m ((c : Thread nD τ).loc main_arg8)) : S128x128.Idx → Elt Ideal .f32) slices_S128x128_S64x128_0_0 j k ⟨j.val, by omega⟩ (Nat.zero_add _).symm)
  · exact congrArg₂ (fun a b : Elt Ideal .f32 => a * b) rfl
      (slice2_axis0_apply 64 ((m ((c : Thread nD τ).loc main_arg8)) : S128x128.Idx → Elt Ideal .f32) slices_S128x128_S64x128_64_0 j k ⟨64 + j.val, by omega⟩ rfl)

end Cert.Bridge

end
-- ==== Proof.RefHead.lean ====
import proofs.«129203_j89524298318419_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

/-! The last stage of the reference, read at one output element.

The reference joins two 100000 x 64 arrays `u` and `m` along the column axis into `h` (100000 x 128) and returns
`max (h W1 + b1) 0 W2 + b2`, with `W1` 128 x 128 and `W2` 128 x 1. At row `r`, column `0` this is

  sum over k < 128 of  max (sum over j < 64 of u r j * W1 j k  +  sum over j < 64 of m r j * W1 (64 + j) k  +  b1 k) 0 * W2 k 0,
  plus b2 0:

the contraction over the 128 joined columns splits into the first 64 (which read `u`) and the last 64 (which read
`m`). Values are extended reals; finite sums there split and reorder freely, so nothing is assumed of the inputs. -/

noncomputable section

namespace Cert.Bridge

open Cert.ReferenceIdeal Cert.ReferenceIdeal.Read Idealize.ShloMosaic Idealize.ShloMosaic.ValueIdx

/-- A sum over 128 terms is the sum of its first 64 terms plus the sum of its last 64. -/
theorem sum_fin128_split {M : Type} [AddCommMonoid M] (f : Fin 128 → M) :
    ∑ j : Fin 128, f j
      = (∑ j : Fin 64, f (⟨j.val, by omega⟩ : Fin 128)) + ∑ j : Fin 64, f (⟨64 + j.val, by omega⟩ : Fin 128) :=
  Fin.sum_univ_add (a := 64) (b := 64) f

/-- The second product's left operand at output row `r` and contraction position `k`: row `r`, column `k`. -/
theorem lidx106 (r : Fin 100000) (k : Fin 128) : lidx_main_v106 (ix2 r (0 : Fin 1)) k = ix2 r k :=
  funext fun a => by match a with | ⟨0, _⟩ => rfl | ⟨1, _⟩ => rfl

/-- The second product's right operand there: row `k`, column `0`. -/
theorem ridx106 (r : Fin 100000) (k : Fin 128) : ridx_main_v106 (ix2 r (0 : Fin 1)) k = ix2 k (0 : Fin 1) :=
  funext fun a => by match a with | ⟨0, _⟩ => rfl | ⟨1, _⟩ => rfl

/-- The second bias, broadcast twice, is read at its one position. -/
theorem idx108 (r : Fin 100000) : idx_main_v107 (idx_main_v108 (ix2 r (0 : Fin 1))) = ix1 (0 : Fin 1) :=
  funext fun a => by match a with | ⟨0, _⟩ => rfl

/-- The first product's left operand at output position `(r, k)` and contraction position `j`: row `r`, column `j`. -/
theorem lidx101 (r : Fin 100000) (k j : Fin 128) : lidx_main_v101 (ix2 r k) j = ix2 r j :=
  funext fun a => by match a with | ⟨0, _⟩ => rfl | ⟨1, _⟩ => rfl

/-- The first product's right operand there: row `j`, column `k`. -/
theorem ridx101 (r : Fin 100000) (k j : Fin 128) : ridx_main_v101 (ix2 r k) j = ix2 j k :=
  funext fun a => by match a with | ⟨0, _⟩ => rfl | ⟨1, _⟩ => rfl

/-- The first bias, broadcast twice, is read at the output column. -/
theorem idx103 (r : Fin 100000) (k : Fin 128) : idx_main_v102 (idx_main_v103 (ix2 r k)) = ix1 k :=
  funext fun a => by match a with | ⟨0, _⟩ => rfl

/-- The two arrays joined along the column axis, read at a column below 64: the first array at that column. -/
theorem cat_left {α : Type} (u m : S100000x64.Idx → α)
    (h : Shape.Concatenates [S100000x64, S100000x64] S100000x128 1) (r : Fin 100000) (j : Fin 64) :
    concatenate S100000x128 1 [⟨S100000x64, u⟩, ⟨S100000x64, m⟩] h (ix2 r (⟨j.val, by omega⟩ : Fin 128))
      = u (ix2 r j) :=
  concatenate_pair_apply_left 1 u m h _ rfl _ (fun b => by
    match b with
    | ⟨0, _⟩ => rfl
    | ⟨1, _⟩ => rfl)

/-- The two arrays joined along the column axis, read at column `64 + j`: the second array at column `j`. -/
theorem cat_right {α : Type} (u m : S100000x64.Idx → α)
    (h : Shape.Concatenates [S100000x64, S100000x64] S100000x128 1) (r : Fin 100000) (j : Fin 64) :
    concatenate S100000x128 1 [⟨S100000x64, u⟩, ⟨S100000x64, m⟩] h (ix2 r (⟨64 + j.val, by omega⟩ : Fin 128))
      = m (ix2 r j) :=
  concatenate_pair_apply_right 1 u m h _ rfl rfl _
    (fun b hb => by
      match b with
      | ⟨0, _⟩ => rfl
      | ⟨1, _⟩ => exact absurd rfl hb)
    (by show j.val + 64 = 64 + j.val; omega)

/-- The first product at row `r`, column `k`: the contraction over the 128 joined columns is the contraction of the
    first array's 64 columns against rows 0..63 of the weight plus that of the second array's against rows 64..127. -/
theorem ref_dot1 (x0 : (⟨S100000x3, .f32⟩ : BufTy).Contents (Elt Ideal)) (x1 : (⟨S100000x18, .f32⟩ : BufTy).Contents (Elt Ideal)) (x2 : (⟨S2x1000000, .i32⟩ : BufTy).Contents (Elt Ideal)) (x3 : (⟨S1000000, .f32⟩ : BufTy).Contents (Elt Ideal)) (x4 : (⟨S3x64, .f32⟩ : BufTy).Contents (Elt Ideal)) (x5 : (⟨S64, .f32⟩ : BufTy).Contents (Elt Ideal)) (x6 : (⟨S18x64, .f32⟩ : BufTy).Contents (Elt Ideal)) (x7 : (⟨S64, .f32⟩ : BufTy).Contents (Elt Ideal)) (x8 : (⟨S128x128, .f32⟩ : BufTy).Contents (Elt Ideal)) (r : Fin 100000) (k : Fin 128) :
    val_main_v101 (F := Ideal) x0 x1 x2 x3 x4 x5 x6 x7 x8 (ix2 r k)
      = (∑ j : Fin 64, val_main_v49 (F := Ideal) x0 x2 x3 x4 x5 (ix2 r j) * x8 (ix2 (⟨j.val, by omega⟩ : Fin 128) k))
          + (∑ j : Fin 64, val_main_v99 (F := Ideal) x1 x2 x3 x6 x7 (ix2 r j) * x8 (ix2 (⟨64 + j.val, by omega⟩ : Fin 128) k)) := by
  have e1 : ∀ j : Fin 64,
      val_main_v100 (F := Ideal) x0 x1 x2 x3 x4 x5 x6 x7 (lidx_main_v101 (ix2 r k) (⟨j.val, by omega⟩ : Fin 128))
          * x8 (ridx_main_v101 (ix2 r k) (⟨j.val, by omega⟩ : Fin 128))
        = val_main_v49 (F := Ideal) x0 x2 x3 x4 x5 (ix2 r j) * x8 (ix2 (⟨j.val, by omega⟩ : Fin 128) k) := fun j => by
    rw [lidx101, ridx101, val_main_v100, cat_left]
  have e2 : ∀ j : Fin 64,
      val_main_v100 (F := Ideal) x0 x1 x2 x3 x4 x5 x6 x7 (lidx_main_v101 (ix2 r k) (⟨64 + j.val, by omega⟩ : Fin 128))
          * x8 (ridx_main_v101 (ix2 r k) (⟨64 + j.val, by omega⟩ : Fin 128))
        = val_main_v99 (F := Ideal) x1 x2 x3 x6 x7 (ix2 r j) * x8 (ix2 (⟨64 + j.val, by omega⟩ : Fin 128) k) := fun j => by
    rw [lidx101, ridx101, val_main_v100, cat_right]
  rw [val_main_v101_apply, sum_fin128_split, Finset.sum_congr rfl fun j _ => e1 j, Finset.sum_congr rfl fun j _ => e2 j]

/-- The hidden unit at row `r`, column `k`: the first product plus the first bias, clamped below at zero. -/
theorem ref_hidden (x0 : (⟨S100000x3, .f32⟩ : BufTy).Contents (Elt Ideal)) (x1 : (⟨S100000x18, .f32⟩ : BufTy).Contents (Elt Ideal)) (x2 : (⟨S2x1000000, .i32⟩ : BufTy).Contents (Elt Ideal)) (x3 : (⟨S1000000, .f32⟩ : BufTy).Contents (Elt Ideal)) (x4 : (⟨S3x64, .f32⟩ : BufTy).Contents (Elt Ideal)) (x5 : (⟨S64, .f32⟩ : BufTy).Contents (Elt Ideal)) (x6 : (⟨S18x64, .f32⟩ : BufTy).Contents (Elt Ideal)) (x7 : (⟨S64, .f32⟩ : BufTy).Contents (Elt Ideal)) (x8 : (⟨S128x128, .f32⟩ : BufTy).Contents (Elt Ideal)) (x9 : (⟨S128, .f32⟩ : BufTy).Contents (Elt Ideal)) (r : Fin 100000) (k : Fin 128) :
    val_main_v105 (F := Ideal) x0 x1 x2 x3 x4 x5 x6 x7 x8 x9 (ix2 r k)
      = max ((∑ j : Fin 64, val_main_v49 (F := Ideal) x0 x2 x3 x4 x5 (ix2 r j) * x8 (ix2 (⟨j.val, by omega⟩ : Fin 128) k))
          + (∑ j : Fin 64, val_main_v99 (F := Ideal) x1 x2 x3 x6 x7 (ix2 r j) * x8 (ix2 (⟨64 + j.val, by omega⟩ : Fin 128) k))
          + x9 (ix1 k)) 0 := by
  rw [val_main_v105_apply, val_main_v104_apply, ref_dot1, val_main_v103_apply, val_main_v102_apply, idx103,
    val_main_call2_v0_apply, val_main_call2_cst_apply, Ideal.maximumf_def, Ideal.addf_def, Ideal.ofBits_def,
    Ideal.ofBits_zero_f32]

/-- The reference's result at row `r`: the contraction over the 128 joined columns, split into the 64 columns of the
    first array against rows 0..63 of the first weight and the 64 columns of the second array against rows 64..127,
    plus the first bias, clamped below at zero, contracted with the second weight, plus the second bias. -/
theorem ref_head (x0 : (⟨S100000x3, .f32⟩ : BufTy).Contents (Elt Ideal)) (x1 : (⟨S100000x18, .f32⟩ : BufTy).Contents (Elt Ideal)) (x2 : (⟨S2x1000000, .i32⟩ : BufTy).Contents (Elt Ideal)) (x3 : (⟨S1000000, .f32⟩ : BufTy).Contents (Elt Ideal)) (x4 : (⟨S3x64, .f32⟩ : BufTy).Contents (Elt Ideal)) (x5 : (⟨S64, .f32⟩ : BufTy).Contents (Elt Ideal)) (x6 : (⟨S18x64, .f32⟩ : BufTy).Contents (Elt Ideal)) (x7 : (⟨S64, .f32⟩ : BufTy).Contents (Elt Ideal)) (x8 : (⟨S128x128, .f32⟩ : BufTy).Contents (Elt Ideal)) (x9 : (⟨S128, .f32⟩ : BufTy).Contents (Elt Ideal)) (x10 : (⟨S128x1, .f32⟩ : BufTy).Contents (Elt Ideal)) (x11 : (⟨S1, .f32⟩ : BufTy).Contents (Elt Ideal)) (r : Fin 100000) :
    val_main_v109 (F := Ideal) x0 x1 x2 x3 x4 x5 x6 x7 x8 x9 x10 x11 (ix2 r 0)
      = (∑ k : Fin 128, max ((∑ j : Fin 64, val_main_v49 (F := Ideal) x0 x2 x3 x4 x5 (ix2 r j) * x8 (ix2 (⟨j.val, by omega⟩ : Fin 128) k))
            + (∑ j : Fin 64, val_main_v99 (F := Ideal) x1 x2 x3 x6 x7 (ix2 r j) * x8 (ix2 (⟨64 + j.val, by omega⟩ : Fin 128) k))
            + x9 (ix1 k)) 0 * x10 (ix2 k 0)) + x11 (ix1 0) := by
  have hk : ∀ k : Fin 128,
      val_main_v105 (F := Ideal) x0 x1 x2 x3 x4 x5 x6 x7 x8 x9 (lidx_main_v106 (ix2 r (0 : Fin 1)) k)
          * x10 (ridx_main_v106 (ix2 r (0 : Fin 1)) k)
        = max ((∑ j : Fin 64, val_main_v49 (F := Ideal) x0 x2 x3 x4 x5 (ix2 r j) * x8 (ix2 (⟨j.val, by omega⟩ : Fin 128) k))
          + (∑ j : Fin 64, val_main_v99 (F := Ideal) x1 x2 x3 x6 x7 (ix2 r j) * x8 (ix2 (⟨64 + j.val, by omega⟩ : Fin 128) k))
            + x9 (ix1 k)) 0 * x10 (ix2 k 0) := fun k => by
    rw [lidx106, ridx106, ref_hidden]
  rw [val_main_v109_apply, val_main_v106_apply, val_main_v108_apply, val_main_v107_apply, idx108, Ideal.addf_def,
    Finset.sum_congr rfl fun k _ => hk k]

end Cert.Bridge
-- ==== Proof.lean ====
/-
  A two-branch graph convolution with an MLP head, as a grid-kernel program, against its plain reference: equal over the
  extended reals, entry by entry.

  Both programs add self loops to the edge list, take each node's degree as the sum of the weights of the edges that end
  in it, normalise an edge by `dinv[source] · weight · dinv[target]` (`dinv` the inverse square root of the degree where it
  is positive, zero elsewhere), and for each of the two feature arrays compute `x · W`, gather its rows along the edges'
  sources, scale by the normalisation, add up at the edges' targets and add a bias. The head concatenates the two
  64-column results, multiplies by a 128 × 128 weight, adds a bias, cuts off below at zero, multiplies by a 128 × 1
  weight and adds a last bias.

  The kernel program differs in four places, none of which changes a value over the extended reals. (1) The two products
  `x · W` are grid kernels over blocks of ten thousand rows, their operands narrowed first (the identity here): an entry of
  a block's product depends on one row of `x` only, so the blocks assemble the whole product. (2) The normalisation is
  computed once and used twice; the reference computes it twice, by the same operations on the same arrays. (3) The head
  is a grid kernel over blocks of five thousand rows that never forms the concatenation: the contraction over the 128
  concatenated columns is the sum over the first 64 (against rows 0…63 of the weight) plus the sum over the last 64
  (against rows 64…127) — a finite sum split in two, which holds in any commutative additive monoid, infinities
  included, so the inputs' finiteness is not used. (4) The last weight and bias are written into column 0 of zero arrays
  and only column 0 of the result is kept: column 0 of the padded product is the unpadded product.
-/
import proofs.«129203_j89524298318419_1_alg».proof.Defs
import proofs.«129203_j89524298318419_1_alg».proof.Proof.Gen.Kernel
import proofs.«129203_j89524298318419_1_alg».proof.Proof.Gen.Kernel.Frame
import proofs.«129203_j89524298318419_1_alg».proof.Proof.Gen.KernelIdeal
import proofs.«129203_j89524298318419_1_alg».proof.Proof.Gen.KernelIdeal.Frame
import proofs.«129203_j89524298318419_1_alg».proof.Proof.Gen.ReferenceIdeal
import proofs.«129203_j89524298318419_1_alg».proof.Proof.Gen.ReferenceIdeal.Run
import proofs.«129203_j89524298318419_1_alg».proof.Proof.Gen.ReferenceIdeal.Read
import proofs.«129203_j89524298318419_1_alg».proof.Proof.Gen.Pre_finite_inputs
import proofs.«129203_j89524298318419_1_alg».proof.Proof.KernelRun
import proofs.«129203_j89524298318419_1_alg».proof.Proof.HeadValue
import proofs.«129203_j89524298318419_1_alg».proof.Proof.RefHead
import Idealize.ShloMosaic.Adequacy
import Idealize.ShloMosaic.Init

set_option maxRecDepth 16384

noncomputable section

namespace Cert.Bridge

open Cert.KernelIdeal Cert.KernelIdeal.Gen
open Idealize.ShloMosaic Idealize.ShloMosaic.TcCoe Idealize.ShloMosaic.ValueIdx Idealize.SL.Sem

/-- The kernel's result array is the reference's last stage of the same argument arrays: both are, at row `r`, the head
    of the two aggregates. -/
theorem result_eq (m : (ℓ : Loc nD τ sig) → Buf (Elt Ideal) ℓ) (ρ : Dev nD → PrngReg) (c : Dev nD) :
    W8 m ρ c (Proc.devRef .tc main_v77)
      = Cert.ReferenceIdeal.Read.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  funext i
  obtain ⟨r, q, rfl⟩ : ∃ (r : Fin 100000) (q : Fin 1), i = ix2 r q := ⟨i 0, i 1, eq_ix2 i⟩
  obtain rfl : q = 0 := Subsingleton.elim _ _
  rw [ref_head]
  exact kernel_at m ρ c r

end Cert.Bridge

namespace Cert.Proof

open Idealize.ShloMosaic Idealize.SL.Sem

/-- The word-level kernel runs and leaves its arguments: the generated frame. -/
theorem frame_kernel : Cert.frame_Kernel := fun m ρ _ => Cert.Kernel.Gen.frame m ρ
/-- So does its idealization. -/
theorem frame_kernelIdeal : Cert.frame_KernelIdeal := fun m ρ _ => Cert.KernelIdeal.Gen.frame m ρ
/-- The reference is host operations only: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs run, and the kernel's result array is the reference's. -/
theorem algebraic : Cert.algebraic_KernelIdeal_ReferenceIdeal := by
  intro m ρ m' ρ' _ hagree
  refine ⟨fun c => Cert.KernelIdeal.Gen.W8 m ρ c (Proc.devRef .tc Cert.KernelIdeal.main_v77), Cert.Bridge.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v109_eq]
  obtain ⟨h0, h1, h2, h3, h4, h5, h6, h7, h8, h9, h10, h11⟩ := hagree c
  rw [h0, h1, h2, h3, h4, h5, h6, h7, h8, h9, h10, h11]
  exact (Cert.Bridge.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
